-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048x4 : Shape := ⟨3, ![64, 2048, 4]⟩
abbrev S_ : Shape := ⟨0, ![]⟩

class Facts : Prop where
  bcast_S_S64x2048x4 : S_.BroadcastsInDim S64x2048x4 (![] : Fin 0 → Fin S64x2048x4.rank)
  reducesTo_S64x2048x4_S_d0_1_2 : S64x2048x4.ReducesTo [0, 1, 2] S_
  h_S_ : 0 < S_.numel

variable [Facts]

def fn {F : FTy → Type} [FloatOps F] (main_arg0 : FVec F S64x2048x4 .f32) (main_arg1 : FVec F S64x2048x4 .f32) : IVec S_ 1 :=
  let main_v0 : FVec F S64x2048x4 .f32 := Host.absf main_arg0
  let main_cst : FVec F S_ .f32 := constant S_ .f32 0x7F800000#32
  let main_v1 : FVec F S64x2048x4 .f32 := broadcastInDim S64x2048x4 ![] bcast_S_S64x2048x4 main_cst
  let main_v2 : IVec S64x2048x4 1 := cmpf .olt main_v0 main_v1
  let main_c : IVec S_ 1 := constantI S_ 1 1#1
  let main_v3 : IVec S_ 1 := (fun x v => Host.reduce IntOp.andi x v reducesTo_S64x2048x4_S_d0_1_2 h_S_) main_v2 main_c
  let main_v4 : FVec F S64x2048x4 .f32 := Host.absf main_arg1
  let main_cst_0 : FVec F S_ .f32 := constant S_ .f32 0x7F800000#32
  let main_v5 : FVec F S64x2048x4 .f32 := broadcastInDim S64x2048x4 ![] bcast_S_S64x2048x4 main_cst_0
  let main_v6 : IVec S64x2048x4 1 := cmpf .olt main_v4 main_v5
  let main_c_1 : IVec S_ 1 := constantI S_ 1 1#1
  let main_v7 : IVec S_ 1 := (fun x v => Host.reduce IntOp.andi x v reducesTo_S64x2048x4_S_d0_1_2 h_S_) main_v6 main_c_1
  let main_v8 : IVec S_ 1 := andi main_v3 main_v7
  main_v8
-- ==== Kernel.lean ====
abbrev S64x2048x4 : Shape := ⟨3, ![64, 2048, 4]⟩
abbrev S64x4x2048 : Shape := ⟨3, ![64, 4, 2048]⟩
abbrev S64x1x1 : Shape := ⟨3, ![64, 1, 1]⟩
abbrev S1x512x4 : Shape := ⟨3, ![1, 512, 4]⟩
abbrev S1x4x2048 : Shape := ⟨3, ![1, 4, 2048]⟩
abbrev S1x1x1 : Shape := ⟨3, ![1, 1, 1]⟩
abbrev S1x2048 : Shape := ⟨2, ![1, 2048]⟩
abbrev S1x1 : Shape := ⟨2, ![1, 1]⟩
abbrev S4x2048 : Shape := ⟨2, ![4, 2048]⟩
abbrev S2048 : Shape := ⟨1, ![2048]⟩
abbrev S512x4 : Shape := ⟨2, ![512, 4]⟩
abbrev S512 : Shape := ⟨1, ![512]⟩
abbrev S512x1 : Shape := ⟨2, ![512, 1]⟩
abbrev S512x2048 : Shape := ⟨2, ![512, 2048]⟩
abbrev S1 : Shape := ⟨1, ![1]⟩
abbrev S_ : Shape := ⟨0, ![]⟩
abbrev S64x4 : Shape := ⟨2, ![64, 4]⟩

abbrev nBuf : Space → Nat
  | .hbm => 17
  | .vmem => 9
  | .smem => 0
  | _ => 0

abbrev bufTy : (tb : Table) → Fin (tcTables nBuf tb) → BufTy
  | .hbm, ⟨0, _⟩ => ⟨S64x2048x4, .f32⟩
  | .hbm, ⟨1, _⟩ => ⟨S64x2048x4, .f32⟩
  | .hbm, ⟨2, _⟩ => ⟨S64x4x2048, .f32⟩
  | .hbm, ⟨3, _⟩ => ⟨S64x1x1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S64x4, .f32⟩
  | .hbm, ⟨8, _⟩ => ⟨S_, .f32⟩
  | .hbm, ⟨9, _⟩ => ⟨S64x4, .f32⟩
  | .hbm, ⟨10, _⟩ => ⟨S64x4, .f32⟩
  | .hbm, ⟨11, _⟩ => ⟨S64x4, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .local _ .vmem, ⟨0, _⟩ => ⟨S1x512x4, .f32⟩
  | .local _ .vmem, ⟨1, _⟩ => ⟨S1x512x4, .f32⟩
  | .local _ .vmem, ⟨2, _⟩ => ⟨S1x4x2048, .f32⟩
  | .local _ .vmem, ⟨3, _⟩ => ⟨S1x4x2048, .f32⟩
  | .local _ .vmem, ⟨4, _⟩ => ⟨S1x1x1, .f32⟩
  | .local _ .vmem, ⟨5, _⟩ => ⟨S1x1x1, .f32⟩
  | .local _ .vmem, ⟨6, _⟩ => ⟨S1x2048, .f32⟩
  | .local _ .vmem, ⟨7, _⟩ => ⟨S1x1, .f32⟩
  | .local _ .vmem, ⟨8, _⟩ => ⟨S1x2048, .f32⟩
  | _, _ => ⟨S64x2048x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![64, 4], ![false, false]⟩

def k0_cond2 (i : grid0.Coords) : BitVec 1 :=
  let arg1 : BitVec 32 := BitVec.ofNat 32 (i 1).val
  let c3_i32 : BitVec 32 := 3#32
  let v56 : BitVec 1 := Scalar.cmpi .eq arg1 c3_i32
  let v57 : BitVec 32 := Scalar.extui v56
  let c0_i32_20 : BitVec 32 := 0#32
  let v58 : BitVec 1 := Scalar.cmpi .ne v57 c0_i32_20
  v58

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  transposes_S64x2048x4_S64x4x2048_0_2_1 : S64x2048x4.Transposes [0, 2, 1] S64x4x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x4x2048_S1x4x2048_0_0_0 : ∀ a, (![0, 0, 0] : Fin 3 → Nat) a + S1x4x2048.size a ≤ S1x4x2048.size a
  h_S1x4x2048 : 0 < S1x4x2048.numel
  shapeCasts_S1x4x2048_S4x2048 : S1x4x2048.ShapeCasts S4x2048
  reduces_S4x2048_S2048 : S4x2048.Reduces [0] S2048
  shapeCasts_S2048_S1x2048 : S2048.ShapeCasts S1x2048
  inb_S1x512x4_S1x512x4_0_0_0 : ∀ a, (![0, 0, 0] : Fin 3 → Nat) a + S1x512x4.size a ≤ S1x512x4.size a
  h_S1x512x4 : 0 < S1x512x4.numel
  shapeCasts_S1x512x4_S512x4 : S1x512x4.ShapeCasts S512x4
  reduces_S512x4_S512 : S512x4.Reduces [1] S512
  shapeCasts_S512_S512x1 : S512.ShapeCasts S512x1
  slices_S512x4_o0_0_S512x1 : S512x4.Slices ![0, 0] S512x1
  slices_S4x2048_o0_0_S1x2048 : S4x2048.Slices ![0, 0] S1x2048
  broadcasts_S512x1_S512x2048 : S512x1.Broadcasts S512x2048
  broadcasts_S1x2048_S512x2048 : S1x2048.Broadcasts S512x2048
  slices_S512x4_o0_1_S512x1 : S512x4.Slices ![0, 1] S512x1
  slices_S4x2048_o1_0_S1x2048 : S4x2048.Slices ![1, 0] S1x2048
  slices_S512x4_o0_2_S512x1 : S512x4.Slices ![0, 2] S512x1
  slices_S4x2048_o2_0_S1x2048 : S4x2048.Slices ![2, 0] S1x2048
  slices_S512x4_o0_3_S512x1 : S512x4.Slices ![0, 3] S512x1
  slices_S4x2048_o3_0_S1x2048 : S4x2048.Slices ![3, 0] S1x2048
  reduces_S512x2048_S512 : S512x2048.Reduces [1] S512
  reduces_S512x2048_S2048 : S512x2048.Reduces [0] S2048
  reduces_S512x1_S1 : S512x1.Reduces [0] S1
  shapeCasts_S1_S1x1 : S1.ShapeCasts S1x1
  reduces_S1x2048_S1 : S1x2048.Reduces [1] S1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  reducesTo_S64x1x1_S_d0_1_2 : S64x1x1.ReducesTo [0, 1, 2] S_
  h_S_ : 0 < S_.numel
  reducesTo_S64x2048x4_S64x4_d1 : S64x2048x4.ReducesTo [1] S64x4
  reducesTo_S64x4_S_d0_1 : S64x4.ReducesTo [0, 1] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x4.size a ≤ S64x2048x4.size a
  hwx0_0 : ∀ i : grid0.Coords, EltTy.bits .f32 = 32 ∨ (Rect.block (s := S64x2048x4) S1x512x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4x2048.size a ≤ S64x4x2048.size a
  hwx0_1 : ∀ i : grid0.Coords, EltTy.bits .f32 = 32 ∨ (Rect.block (s := S64x4x2048) S1x4x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S64x1x1.size a
  hwx0_2 : ∀ i : grid0.Coords, EltTy.bits .f32 = 32 ∨ (Rect.block (s := S64x1x1) S1x1x1.size (cc0_transform_2 i) (hinb0_2 i)).WholeWords (EltTy.packing .f32)

variable [Facts₀]

abbrev win0_0 : Pipeline.Window sig grid0 :=
  Pipeline.Window.ofSpec (Memref.whole main_arg0) S1x512x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x4x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S64x2048x4 : Shape := ⟨3, ![64, 2048, 4]⟩
abbrev S_ : Shape := ⟨0, ![]⟩
abbrev S64x2048 : Shape := ⟨2, ![64, 2048]⟩
abbrev S64x2048x2048 : Shape := ⟨3, ![64, 2048, 2048]⟩
abbrev S64x2048x1 : Shape := ⟨3, ![64, 2048, 1]⟩
abbrev S64x1x2048 : Shape := ⟨3, ![64, 1, 2048]⟩
abbrev S64x4 : Shape := ⟨2, ![64, 4]⟩

abbrev nBuf : Space → Nat
  | .hbm => 36
  | .vmem => 0
  | .smem => 0
  | _ => 0

abbrev bufTy : (tb : Table) → Fin (tcTables nBuf tb) → BufTy
  | .hbm, ⟨0, _⟩ => ⟨S64x2048x4, .f32⟩
  | .hbm, ⟨1, _⟩ => ⟨S64x2048x4, .f32⟩
  | .hbm, ⟨2, _⟩ => ⟨S64x2048x4, .f32⟩
  | .hbm, ⟨3, _⟩ => ⟨S_, .f32⟩
  | .hbm, ⟨4, _⟩ => ⟨S64x2048, .f32⟩
  | .hbm, ⟨5, _⟩ => ⟨S64x2048x4, .f32⟩
  | .hbm, ⟨6, _⟩ => ⟨S_, .f32⟩
  | .hbm, ⟨7, _⟩ => ⟨S64x2048, .f32⟩
  | .hbm, ⟨8, _⟩ => ⟨S64x2048x2048, .f32⟩
  | .hbm, ⟨9, _⟩ => ⟨S64x2048x1, .f32⟩
  | .hbm, ⟨10, _⟩ => ⟨S64x1x2048, .f32⟩
  | .hbm, ⟨11, _⟩ => ⟨S64x2048x2048, .f32⟩
  | .hbm, ⟨12, _⟩ => ⟨S64x2048x2048, .f32⟩
  | .hbm, ⟨13, _⟩ => ⟨S64x2048x2048, .f32⟩
  | .hbm, ⟨14, _⟩ => ⟨S_, .f32⟩
  | .hbm, ⟨15, _⟩ => ⟨S64x2048x2048, .f32⟩
  | .hbm, ⟨16, _⟩ => ⟨S64x2048x2048, .f32⟩
  | .hbm, ⟨17, _⟩ => ⟨S64x2048x2048, .f32⟩
  | .hbm, ⟨18, _⟩ => ⟨S_, .f32⟩
  | .hbm, ⟨19, _⟩ => ⟨S64x2048, .f32⟩
  | .hbm, ⟨20, _⟩ => ⟨S_, .f32⟩
  | .hbm, ⟨21, _⟩ => ⟨S64x2048, .f32⟩
  | .hbm, ⟨22, _⟩ => ⟨S64x2048, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S64x4, .f32⟩
  | .hbm, ⟨27, _⟩ => ⟨S_, .f32⟩
  | .hbm, ⟨28, _⟩ => ⟨S64x4, .f32⟩
  | .hbm, ⟨29, _⟩ => ⟨S64x4, .f32⟩
  | .hbm, ⟨30, _⟩ => ⟨S64x4, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | _, _ => ⟨S64x2048x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_cst_8 : Ref sig .tc := ⟨.hbm, 33, rfl⟩
abbrev main_v22 : Ref sig .tc := ⟨.hbm, 34, rfl⟩
abbrev main_v23 : Ref sig .tc := ⟨.hbm, 35, rfl⟩

abbrev nD : Nat := 1
abbrev τ : Topo := Topo.v7x

variable {F : FTy → Type} [FloatOps F]

class Facts₀ : Prop where
  reducesTo_S64x2048x4_S64x2048_d2 : S64x2048x4.ReducesTo [2] S64x2048
  h_S_ : 0 < S_.numel
  bcast_S64x2048_S64x2048x1_0_1 : S64x2048.BroadcastsInDim S64x2048x1 (![0, 1] : Fin 2 → Fin S64x2048x1.rank)
  bcast_S64x2048_S64x1x2048_0_2 : S64x2048.BroadcastsInDim S64x1x2048 (![0, 2] : Fin 2 → Fin S64x1x2048.rank)
  bcast_S64x2048x1_S64x2048x2048_0_1_2 : S64x2048x1.BroadcastsInDim S64x2048x2048 (![0, 1, 2] : Fin 3 → Fin S64x2048x2048.rank)
  bcast_S64x1x2048_S64x2048x2048_0_1_2 : S64x1x2048.BroadcastsInDim S64x2048x2048 (![0, 1, 2] : Fin 3 → Fin S64x2048x2048.rank)
  bcast_S_S64x2048x2048 : S_.BroadcastsInDim S64x2048x2048 (![] : Fin 0 → Fin S64x2048x2048.rank)
  reducesTo_S64x2048x2048_S64x2048_d2 : S64x2048x2048.ReducesTo [2] S64x2048
  reducesTo_S64x2048x2048_S64x2048_d1 : S64x2048x2048.ReducesTo [1] S64x2048
  reducesTo_S64x2048_S_d0_1 : S64x2048.ReducesTo [0, 1] S_
  reducesTo_S64x2048x4_S64x4_d1 : S64x2048x4.ReducesTo [1] S64x4
  reducesTo_S64x4_S_d0_1 : S64x4.ReducesTo [0, 1] S_
  dot_S64x2048x4_S64x2048x4_S64x2048x2048_2_2_1_1_0_0_wf : DotDims.WF S64x2048x4 S64x2048x4 S64x2048x2048 [2] [2] [1] [1] [0] [0]

variable [Facts₀]

def dot_S64x2048x4_S64x2048x4_S64x2048x2048_2_2_1_1_0_0 : DotDims S64x2048x4 S64x2048x4 S64x2048x2048 where
  lhsContracting := [2]
  rhsContracting := [2]
  lhsNonContracting := [1]
  rhsNonContracting := [1]
  lhsBatch := [0]
  rhsBatch := [0]
  wf := dot_S64x2048x4_S64x2048x4_S64x2048x2048_2_2_1_1_0_0_wf

class Facts : Prop extends Facts₀ where

variable [Facts]
-- ==== Proof.ChamferSpec.lean ====
/-
  The Chamfer loss between two clouds of 2048 points in four coordinates, 64 clouds at once, as ONE function of the
  two argument arrays, on the extended reals.

  For a batch b the squared distance of point r of p to point n of q is written in its expanded form
      dist b r n = (|p_r|² + |q_n|²) − 2 · ⟨p_r, q_n⟩,
  the nearest neighbour of a point is a minimum of these over the other cloud, taken from +∞, and the loss is the
  sum over b and over the 2048 positions of (nearest q of p_n) + (nearest p of q_n).
-/
import Idealize.ShloMosaic.PureOps.Ideal
import Idealize.ShloMosaic.PureOps.Ideal.Laws
import Idealize.ShloMosaic.Lib.ValueIdx

noncomputable section

open scoped BigOperators

namespace Chamfer

open Idealize.ShloMosaic Idealize.ShloMosaic.ValueIdx

/-- An argument array: 64 clouds of 2048 points in 4 coordinates. -/
abbrev Cloud : Type := (⟨3, ![64, 2048, 4]⟩ : Shape).Idx → EReal

/-- The f32 word of +∞, the start of every minimum. -/
def top : EReal := Ideal.ofBits .f32 0x7F800000#32
/-- The f32 word of 2. -/
def two : EReal := Ideal.ofBits .f32 0x40000000#32

/-- |A_r|² in batch b. -/
def sq (A : Cloud) (b : Fin 64) (r : Fin 2048) : EReal := ∑ d : Fin 4, A (ix3 b r d) * A (ix3 b r d)

/-- ⟨p_r, q_n⟩ in batch b. -/
def cross (P Q : Cloud) (b : Fin 64) (r n : Fin 2048) : EReal := ∑ d : Fin 4, P (ix3 b r d) * Q (ix3 b n d)

/-- The squared distance of p_r to q_n in batch b, expanded. -/
def dist (P Q : Cloud) (b : Fin 64) (r n : Fin 2048) : EReal := (sq P b r + sq Q b n) - two * cross P Q b r n

/-- The squared distance of p_r to its nearest point of q. -/
def rowMin (P Q : Cloud) (b : Fin 64) (r : Fin 2048) : EReal :=
  (Finset.univ : Finset (Fin 2048)).fold min top (fun n => dist P Q b r n)

/-- The squared distance of q_n to its nearest point of p. -/
def colMin (P Q : Cloud) (b : Fin 64) (n : Fin 2048) : EReal :=
  (Finset.univ : Finset (Fin 2048)).fold min top (fun r => dist P Q b r n)

/-- The Chamfer loss. -/
def chamfer (P Q : Cloud) : EReal := ∑ b : Fin 64, ∑ n : Fin 2048, (rowMin P Q b n + colMin P Q b n)

/-! ## The same loss the way a tiled pass over the clouds accumulates it

A pass over batch b visits p in four tiles of 512 consecutive points. It keeps, per q-point n, the minimum so far of
dist(p_r, q_n) over the p-points seen, and the sum so far of the row minima; after the fourth tile the batch's
contribution is that sum plus the sum over n of the column minima. Grid point t of the 256 works on batch ⌊t/4⌋ and tile
t mod 4. -/

/-- The batch a grid point works on. -/
def batchOf (t : ℕ) : Fin 64 := ⟨t / 4 % 64, Nat.mod_lt _ (by norm_num)⟩

/-- Row r of tile j, as a point of p. -/
def tileRow (j : ℕ) (r : Fin 512) : Fin 2048 := ⟨(512 * j + r.val) % 2048, Nat.mod_lt _ (by norm_num)⟩

/-- The nearest point of tile j of p to q_n. -/
def tileColMin (P Q : Cloud) (b : Fin 64) (j : ℕ) (n : Fin 2048) : EReal :=
  (Finset.univ : Finset (Fin 512)).fold min top (fun r => dist P Q b (tileRow j r) n)

/-- The sum over tile j of the row minima. -/
def tileRowSum (P Q : Cloud) (b : Fin 64) (j : ℕ) : EReal := ∑ r : Fin 512, rowMin P Q b (tileRow j r)

/-- The column minima after tiles 0 … j, started from +∞. -/
def colAcc (P Q : Cloud) (b : Fin 64) : ℕ → Fin 2048 → EReal
  | 0, n => min top (tileColMin P Q b 0 n)
  | j + 1, n => min (colAcc P Q b j n) (tileColMin P Q b (j + 1) n)

/-- The sum of the row minima after tiles 0 … j, started from the zero word. -/
def sumAcc (P Q : Cloud) (b : Fin 64) : ℕ → EReal
  | 0 => Ideal.ofBits .f32 0x00000000#32 + tileRowSum P Q b 0
  | j + 1 => sumAcc P Q b j + tileRowSum P Q b (j + 1)

/-- What the tiled pass leaves for batch b. -/
def batchOut (P Q : Cloud) (b : Fin 64) : EReal := sumAcc P Q b 3 + ∑ n : Fin 2048, colAcc P Q b 3 n

end Chamfer

end
-- ==== Proof.RefChamfer.lean ====
/-
  The reference program's Chamfer term is the specification's Chamfer loss of its two argument arrays.

  The program forms the array of expanded squared distances
      d (b, r, n) = (|p_r|² + |q_n|²) − 2 · ⟨p_r, q_n⟩,
  takes its minimum from +∞ over n (the nearest q of each p_r) and over r (the nearest p of each q_n), adds the
  two arrays of minima entrywise, and sums all 64 · 2048 entries from 0.  Each stage is read at an index from the
  stage before it; the two minima are folds of `min` over the coordinates of the dropped axis, and the last sum
  over the index set of the 64 × 2048 array is the double sum over its two coordinates.
-/
import proofs.«169637_j33861522161768_2_alg».proof.Proof.Gen.ReferenceIdeal.Read
import proofs.«169637_j33861522161768_2_alg».proof.Proof.ChamferSpec
import Idealize.ShloMosaic.Lib.ValueIdx
import Idealize.ShloMosaic.PureOps.Ideal.Laws
import Idealize.ShloMosaic.PureOps.Reduce

noncomputable section

open scoped BigOperators

namespace Cert.ReferenceIdeal.RefValue

open Cert.ReferenceIdeal Cert.ReferenceIdeal.Gen Cert.ReferenceIdeal.Read Idealize.ShloMosaic
  Idealize.ShloMosaic.ValueIdx

/-- The distance array at (b, r, n) is the expanded squared distance of p_r to q_n in batch b: the two squared
    norms are sums over the four coordinates from 0, broadcast along the other cloud's axis, and the cross term
    is twice the contraction over the four coordinates. -/
theorem dist_apply (P Q : Chamfer.Cloud) (b : Fin 64) (r n : Fin 2048) :
    val_main_v12 (F := Ideal) P Q (ix3 b r n) = Chamfer.dist P Q b r n := by
  have e1 : ∀ k : Fin 4, idx_main_v1 (idx_main_v5 (idx_main_v7 (ix3 b r n))) k = ix3 b r k := fun k =>
    funext fun a => Fin.ext (by match a with | ⟨0, _⟩ => rfl | ⟨1, _⟩ => rfl | ⟨2, _⟩ => rfl)
  have e3 : ∀ k : Fin 4, idx_main_v3 (idx_main_v6 (idx_main_v8 (ix3 b r n))) k = ix3 b n k := fun k =>
    funext fun a => Fin.ext (by match a with | ⟨0, _⟩ => rfl | ⟨1, _⟩ => rfl | ⟨2, _⟩ => rfl)
  have el : ∀ k : Fin 4, lidx_main_v4 (ix3 b r n) k = ix3 b r k := fun k =>
    funext fun a => Fin.ext (by match a with | ⟨0, _⟩ => rfl | ⟨1, _⟩ => rfl | ⟨2, _⟩ => rfl)
  have er : ∀ k : Fin 4, ridx_main_v4 (ix3 b r n) k = ix3 b n k := fun k =>
    funext fun a => Fin.ext (by match a with | ⟨0, _⟩ => rfl | ⟨1, _⟩ => rfl | ⟨2, _⟩ => rfl)
  rw [val_main_v12_apply, val_main_v9_apply, val_main_v11_apply, val_main_v7_apply, val_main_v8_apply,
    val_main_v5_apply, val_main_v6_apply, val_main_v1_apply, val_main_v3_apply, val_main_v10_apply,
    val_main_v4_apply]
  simp only [val_main_v0_apply, val_main_v2_apply, val_main_cst_apply, val_main_cst_0_apply, val_main_cst_1_apply,
    e1, e3, el, er, Ideal.addf_def, Ideal.subf_def, Ideal.mulf_def, Ideal.ofBits_def, Ideal.ofBits_zero_f32,
    zero_add]
  rfl

/-- The nearest-q stage at (b, r): the minimum, from +∞, over n of the distance array at (b, r, n). -/
theorem rowMin_apply (P Q : Chamfer.Cloud) (b : Fin 64) (r : Fin 2048) :
    val_main_v13 (F := Ideal) P Q (ix2 b r) = Chamfer.rowMin P Q b r := by
  have h : S64x2048x2048.Reduces [2] S64x2048 := by decide
  have hl : ∀ n : Fin 2048, h.lift (ix2 b r) n = ix3 b r n := fun n =>
    funext fun a => Fin.ext (by match a with | ⟨0, _⟩ => rfl | ⟨1, _⟩ => rfl | ⟨2, _⟩ => rfl)
  have key : ∀ n : Fin 2048,
      (val_main_v12 (F := Ideal) P Q ∘ h.lift (ix2 b r)) n = Chamfer.dist P Q b r n := fun n => by
    show val_main_v12 (F := Ideal) P Q (h.lift (ix2 b r) n) = _
    rw [hl n, dist_apply]
  unfold val_main_v13
  rw [Host.reduce_eq_fold_single FloatOps.minimumf _ _ reducesTo_S64x2048x2048_S64x2048_d2 h h_S_ (ix2 b r)]
  unfold Chamfer.rowMin
  exact Finset.fold_congr (fun n _ => key n)

/-- The nearest-p stage at (b, n): the minimum, from +∞, over r of the distance array at (b, r, n). -/
theorem colMin_apply (P Q : Chamfer.Cloud) (b : Fin 64) (n : Fin 2048) :
    val_main_v14 (F := Ideal) P Q (ix2 b n) = Chamfer.colMin P Q b n := by
  have h : S64x2048x2048.Reduces [1] S64x2048 := by decide
  have hl : ∀ r : Fin 2048, h.lift (ix2 b n) r = ix3 b r n := fun r =>
    funext fun a => Fin.ext (by match a with | ⟨0, _⟩ => rfl | ⟨1, _⟩ => rfl | ⟨2, _⟩ => rfl)
  have key : ∀ r : Fin 2048,
      (val_main_v12 (F := Ideal) P Q ∘ h.lift (ix2 b n)) r = Chamfer.dist P Q b r n := fun r => by
    show val_main_v12 (F := Ideal) P Q (h.lift (ix2 b n) r) = _
    rw [hl r, dist_apply]
  unfold val_main_v14
  rw [Host.reduce_eq_fold_single FloatOps.minimumf _ _ reducesTo_S64x2048x2048_S64x2048_d1 h h_S_ (ix2 b n)]
  unfold Chamfer.colMin
  exact Finset.fold_congr (fun r _ => key r)

/-- The program's Chamfer term: the sum from 0, over all (b, n), of the two minima at (b, n). -/
theorem ref_chamfer (P Q : Chamfer.Cloud) :
    Cert.ReferenceIdeal.Read.val_main_v16 (F := Ideal) P Q Idealize.ShloMosaic.ValueIdx.ix0 = Chamfer.chamfer P Q := by
  rw [val_main_v16_apply, val_main_cst_4_apply, Ideal.ofBits_def, Ideal.ofBits_zero_f32, zero_add, sum_idx2]
  unfold Chamfer.chamfer
  refine Finset.sum_congr rfl fun b _ => Finset.sum_congr rfl fun n _ => ?_
  rw [val_main_v15_apply, Ideal.addf_def, rowMin_apply, colMin_apply]

/-- The f32 word of +∞ is the top of the extended reals, the neutral element of `min`. -/
theorem top_eq : Chamfer.top = (⊤ : EReal) := by
  unfold Chamfer.top
  simp [Ideal.ofBits, Ideal.ieee]

/-- A minimum over 2048 positions in four tiles.  The minimum of f over all 2048 positions, taken from s, is s
    lowered in turn by the four tile minima, where tile j holds the 512 consecutive positions 512·j + r and its
    minimum is taken from +∞: a lower bound of the left side bounds s and every f x; a lower bound of the right
    side bounds s and every f (512·j + r); and every position x is 512·(x / 512) + x % 512.  The tiles' entries
    are given as any family g with g j r = f (512·j + r). -/
theorem fold_min_four_tiles_of (f : Fin 2048 → EReal) (s : EReal) (g : Fin 4 → Fin 512 → EReal)
    (hg : ∀ (j : Fin 4) (r : Fin 512),
      g j r = f ⟨512 * j.val + r.val, by have := j.isLt; have := r.isLt; omega⟩) :
    (Finset.univ : Finset (Fin 2048)).fold min s f
      = min (min (min (min s
          ((Finset.univ : Finset (Fin 512)).fold min Chamfer.top (g 0)))
          ((Finset.univ : Finset (Fin 512)).fold min Chamfer.top (g 1)))
          ((Finset.univ : Finset (Fin 512)).fold min Chamfer.top (g 2)))
          ((Finset.univ : Finset (Fin 512)).fold min Chamfer.top (g 3)) := by
  refine eq_of_forall_le_iff fun c => ?_
  simp only [le_min_iff, Finset.le_fold_min, Finset.mem_univ, forall_true_left, top_eq, le_top, true_and]
  constructor
  · rintro ⟨hs, hf⟩
    exact ⟨⟨⟨⟨hs, fun r => hg 0 r ▸ hf _⟩, fun r => hg 1 r ▸ hf _⟩, fun r => hg 2 r ▸ hf _⟩, fun r => hg 3 r ▸ hf _⟩
  · rintro ⟨⟨⟨⟨hs, h0⟩, h1⟩, h2⟩, h3⟩
    refine ⟨hs, fun x => ?_⟩
    obtain ⟨j, r, rfl⟩ : ∃ (j : Fin 4) (r : Fin 512),
        x = ⟨512 * j.val + r.val, by have := j.isLt; have := r.isLt; omega⟩ :=
      ⟨⟨x.val / 512, by have := x.isLt; omega⟩, ⟨x.val % 512, Nat.mod_lt _ (by decide)⟩,
        Fin.ext (by show x.val = 512 * (x.val / 512) + x.val % 512; omega)⟩
    rw [← hg]
    match j with
    | ⟨0, _⟩ => exact h0 r
    | ⟨1, _⟩ => exact h1 r
    | ⟨2, _⟩ => exact h2 r
    | ⟨3, _⟩ => exact h3 r

/-- The same with the tiles' entries written out: tile j of f is r ↦ f (512·j + r). -/
theorem fold_min_four_tiles (f : Fin 2048 → EReal) (s : EReal) :
    (Finset.univ : Finset (Fin 2048)).fold min s f
      = min (min (min (min s
          ((Finset.univ : Finset (Fin 512)).fold min Chamfer.top
            (fun r => f ⟨512 * 0 + r.val, by have := r.isLt; omega⟩)))
          ((Finset.univ : Finset (Fin 512)).fold min Chamfer.top
            (fun r => f ⟨512 * 1 + r.val, by have := r.isLt; omega⟩)))
          ((Finset.univ : Finset (Fin 512)).fold min Chamfer.top
            (fun r => f ⟨512 * 2 + r.val, by have := r.isLt; omega⟩)))
          ((Finset.univ : Finset (Fin 512)).fold min Chamfer.top
            (fun r => f ⟨512 * 3 + r.val, by have := r.isLt; omega⟩)) :=
  fold_min_four_tiles_of f s
    (fun j r => f ⟨512 * j.val + r.val, by have := j.isLt; have := r.isLt; omega⟩) (fun _ _ => rfl)

end Cert.ReferenceIdeal.RefValue

end
-- ==== Proof.CaseValues.lean ====
/-
  What one run of the kernel body leaves behind, case by case.

  The body keeps three rows between the grid points of one batch: the running column minima (min over the p-points seen so
  far of dist(p_r, q_n), one entry per q-point n), the running sum of the row minima (Σ over the p-points seen so far of
  min_n dist(p_r, q_n)), and the row |q_n|². This module states, for any float instance, what each buffer holds after the
  body as the body's own arithmetic (the payload terms of the generated skeleton) applied to the point's two input
  blocks and to the three rows as the point before left them.
-/
import proofs.«169637_j33861522161768_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic
open Idealize.ShloMosaic.Pipeline (Dat)

namespace Cert.KernelIdeal.CaseValues

open Cert.KernelIdeal Cert.KernelIdeal.Gen

variable {F : FTy → Type} [FloatOps F]

/-- Every access of the body starts at the origin of its buffer. -/
theorem hz2 : (![0, 0] : Fin 2 → Nat) = fun _ => 0 := funext fun a => by fin_cases a <;> rfl
theorem hz3 : (![0, 0, 0] : Fin 3 → Nat) = fun _ => 0 := funext fun a => by fin_cases a <;> rfl

/-! What each of the three ways through the body leaves in the buffers it stores into, as the body's arithmetic applied to
    the two input blocks and to what the carried buffers held: the first point of a batch (A) resets the column minima to +∞
    and the running sum to 0 and computes |q_n|²; a middle point (B) and the last point (C) go on from what the point
    before left; the last point also writes the batch's result. -/

section A
variable (c : Dev nD) (i : grid0.Coords) (arg2 : Memref sig .tc .vmem S1x512x4 .f32) (harg2 : arg2.IsWhole) (arg3 : Memref sig .tc .vmem S1x4x2048 .f32) (harg3 : arg3.IsWhole) (arg4 : Memref sig .tc .vmem S1x1x1 .f32) (harg4 : arg4.IsWhole) (arg5 : Memref sig .tc .vmem S1x2048 .f32) (harg5 : arg5.IsWhole) (arg6 : Memref sig .tc .vmem S1x1 .f32) (harg6 : arg6.IsWhole) (arg7 : Memref sig .tc .vmem S1x2048 .f32) (harg7 : arg7.IsWhole) (hc0 : cond0_0 i) (hc1 : ¬cond0_1 i)
  (x0 : Vec F S1x512x4 .f32) (x1 : Vec F S1x4x2048 .f32)

/-- First point: the |q_n|² row is computed from the q block. -/
theorem first_qsq : sout0_A_2 c i arg2 harg2 arg3 harg3 arg4 harg4 arg5 harg5 arg6 harg6 arg7 harg7 hc0 hc1 x0 x1 = k0_pay6 x1 := by
  unfold sout0_A_2
  rw [View.read_writes_eq_canon _ _ _ (scover0_A_2 c i arg2 harg2 arg3 harg3 arg4 harg4 arg5 harg5 arg6 harg6 arg7 harg7 hc0 hc1 x0 x1)]
  unfold kernelRun0_A
  dsimp only
  sl_unfold_words
  rw [View.canon_unit_zero hz2]
  simp only [View.readAt_eq_ld, harg3.read_unread, View.ld_unit_zero (S := S1x4x2048) hz3]

/-- First point: the column minima start from the +∞ row. -/
theorem first_colmin : sout0_A_0 c i arg2 harg2 arg3 harg3 arg4 harg4 arg5 harg5 arg6 harg6 arg7 harg7 hc0 hc1 x0 x1 = k0_pay1 (k0_pay9 x0 x1 (k0_pay6 x1)) k0_pay4 := by
  unfold sout0_A_0
  rw [View.read_writes_eq_canon _ _ _ (scover0_A_0 c i arg2 harg2 arg3 harg3 arg4 harg4 arg5 harg5 arg6 harg6 arg7 harg7 hc0 hc1 x0 x1)]
  unfold kernelRun0_A
  dsimp only
  sl_unfold_words
  rw [View.canon_cons_unit_zero (S := S1x2048) hz2]
  simp only [View.readCov_unit_zero (S := S1x2048) _ hz2, View.readAt_eq_ld, harg2.read_unread, harg3.read_unread,
    View.ld_unit_zero (S := S1x4x2048) hz3, View.ld_unit_zero (S := S1x512x4) hz3]

/-- First point: the running sum starts from 0. -/
theorem first_sum : sout0_A_1 c i arg2 harg2 arg3 harg3 arg4 harg4 arg5 harg5 arg6 harg6 arg7 harg7 hc0 hc1 x0 x1 = k0_pay2 (k0_pay8 x0 x1 (k0_pay6 x1)) k0_pay5 := by
  unfold sout0_A_1
  rw [View.read_writes_eq_canon _ _ _ (scover0_A_1 c i arg2 harg2 arg3 harg3 arg4 harg4 arg5 harg5 arg6 harg6 arg7 harg7 hc0 hc1 x0 x1)]
  unfold kernelRun0_A
  dsimp only
  sl_unfold_words
  rw [View.canon_cons_unit_zero (S := S1x1) hz2]
  simp only [View.readCov_unit_zero (S := S1x1) _ hz2, View.readCov_unit_zero (S := S1x2048) _ hz2, View.readAt_eq_ld, harg2.read_unread, harg3.read_unread,
    View.ld_unit_zero (S := S1x4x2048) hz3, View.ld_unit_zero (S := S1x512x4) hz3]
end A

section B
variable (c : Dev nD) (i : grid0.Coords) (arg2 : Memref sig .tc .vmem S1x512x4 .f32) (harg2 : arg2.IsWhole) (arg3 : Memref sig .tc .vmem S1x4x2048 .f32) (harg3 : arg3.IsWhole) (arg4 : Memref sig .tc .vmem S1x1x1 .f32) (harg4 : arg4.IsWhole) (arg5 : Memref sig .tc .vmem S1x2048 .f32) (harg5 : arg5.IsWhole) (arg6 : Memref sig .tc .vmem S1x1 .f32) (harg6 : arg6.IsWhole) (arg7 : Memref sig .tc .vmem S1x2048 .f32) (harg7 : arg7.IsWhole) (hc0 : ¬cond0_0 i) (hc1 : ¬cond0_1 i)
  (x0 : Vec F S1x512x4 .f32) (x1 : Vec F S1x4x2048 .f32) (xs0 : Vec F S1x2048 .f32) (xs1 : Vec F S1x1 .f32) (xs2 : Vec F S1x2048 .f32)

/-- A middle point: the column minima go on from what the point before left. -/
theorem middle_colmin : sout0_B_0 c i arg2 harg2 arg3 harg3 arg4 harg4 arg5 harg5 arg6 harg6 arg7 harg7 hc0 hc1 x0 x1 xs0 xs1 xs2 = k0_pay1 (k0_pay9 x0 x1 xs2) xs0 := by
  unfold sout0_B_0
  rw [View.read_writes_eq_canon _ _ _ (scover0_B_0 c i arg2 harg2 arg3 harg3 arg4 harg4 arg5 harg5 arg6 harg6 arg7 harg7 hc0 hc1 x0 x1 xs0 xs1 xs2)]
  unfold kernelRun0_B
  dsimp only
  sl_unfold_words
  rw [View.canon_unit_zero hz2]
  simp only [View.readAt_eq_ld, harg2.read_unread, harg3.read_unread, harg5.read_unread, harg7.read_unread,
    View.ld_unit_zero (S := S1x4x2048) hz3, View.ld_unit_zero (S := S1x512x4) hz3, View.ld_unit_zero (S := S1x2048) hz2]

/-- A middle point: the running sum goes on from what the point before left. -/
theorem middle_sum : sout0_B_1 c i arg2 harg2 arg3 harg3 arg4 harg4 arg5 harg5 arg6 harg6 arg7 harg7 hc0 hc1 x0 x1 xs0 xs1 xs2 = k0_pay2 (k0_pay8 x0 x1 xs2) xs1 := by
  unfold sout0_B_1
  rw [View.read_writes_eq_canon _ _ _ (scover0_B_1 c i arg2 harg2 arg3 harg3 arg4 harg4 arg5 harg5 arg6 harg6 arg7 harg7 hc0 hc1 x0 x1 xs0 xs1 xs2)]
  unfold kernelRun0_B
  dsimp only
  sl_unfold_words
  rw [View.canon_unit_zero hz2]
  simp only [View.readAt_eq_ld, harg2.read_unread, harg3.read_unread, harg6.read_unread, harg7.read_unread,
    View.ld_unit_zero (S := S1x4x2048) hz3, View.ld_unit_zero (S := S1x512x4) hz3, View.ld_unit_zero (S := S1x2048) hz2, View.ld_unit_zero (S := S1x1) hz2]
end B

section C
variable (c : Dev nD) (i : grid0.Coords) (arg2 : Memref sig .tc .vmem S1x512x4 .f32) (harg2 : arg2.IsWhole) (arg3 : Memref sig .tc .vmem S1x4x2048 .f32) (harg3 : arg3.IsWhole) (arg4 : Memref sig .tc .vmem S1x1x1 .f32) (harg4 : arg4.IsWhole) (arg5 : Memref sig .tc .vmem S1x2048 .f32) (harg5 : arg5.IsWhole) (arg6 : Memref sig .tc .vmem S1x1 .f32) (harg6 : arg6.IsWhole) (arg7 : Memref sig .tc .vmem S1x2048 .f32) (harg7 : arg7.IsWhole) (hc0 : ¬cond0_0 i) (hc1 : cond0_1 i)
  (x0 : Vec F S1x512x4 .f32) (x1 : Vec F S1x4x2048 .f32) (xs0 : Vec F S1x2048 .f32) (xs1 : Vec F S1x1 .f32) (xs2 : Vec F S1x2048 .f32)

/-- The last point: the column minima, as at a middle point. -/
theorem last_colmin : sout0_C_0 c i arg2 harg2 arg3 harg3 arg4 harg4 arg5 harg5 arg6 harg6 arg7 harg7 hc0 hc1 x0 x1 xs0 xs1 xs2 = k0_pay1 (k0_pay9 x0 x1 xs2) xs0 := by
  unfold sout0_C_0
  rw [View.read_writes_eq_canon _ _ _ (scover0_C_0 c i arg2 harg2 arg3 harg3 arg4 harg4 arg5 harg5 arg6 harg6 arg7 harg7 hc0 hc1 x0 x1 xs0 xs1 xs2)]
  unfold kernelRun0_C
  dsimp only
  sl_unfold_words
  rw [View.canon_unit_zero hz2]
  simp only [View.readAt_eq_ld, harg2.read_unread, harg3.read_unread, harg5.read_unread, harg7.read_unread,
    View.ld_unit_zero (S := S1x4x2048) hz3, View.ld_unit_zero (S := S1x512x4) hz3, View.ld_unit_zero (S := S1x2048) hz2]

/-- The last point: the running sum, as at a middle point. -/
theorem last_sum : sout0_C_1 c i arg2 harg2 arg3 harg3 arg4 harg4 arg5 harg5 arg6 harg6 arg7 harg7 hc0 hc1 x0 x1 xs0 xs1 xs2 = k0_pay2 (k0_pay8 x0 x1 xs2) xs1 := by
  unfold sout0_C_1
  rw [View.read_writes_eq_canon _ _ _ (scover0_C_1 c i arg2 harg2 arg3 harg3 arg4 harg4 arg5 harg5 arg6 harg6 arg7 harg7 hc0 hc1 x0 x1 xs0 xs1 xs2)]
  unfold kernelRun0_C
  dsimp only
  sl_unfold_words
  rw [View.canon_unit_zero hz2]
  simp only [View.readAt_eq_ld, harg2.read_unread, harg3.read_unread, harg6.read_unread, harg7.read_unread,
    View.ld_unit_zero (S := S1x4x2048) hz3, View.ld_unit_zero (S := S1x512x4) hz3, View.ld_unit_zero (S := S1x2048) hz2, View.ld_unit_zero (S := S1x1) hz2]

/-- The last point writes the batch's result: the running sum over p's points plus the sum of the column minima. -/
theorem last_out : out0_C_2 c i arg2 harg2 arg3 harg3 arg4 harg4 arg5 harg5 arg6 harg6 arg7 harg7 hc0 hc1 x0 x1 xs0 xs1 xs2
    = k0_pay3 (k0_pay1 (k0_pay9 x0 x1 xs2) xs0) (k0_pay2 (k0_pay8 x0 x1 xs2) xs1) := by
  unfold out0_C_2
  rw [View.read_writes_eq_canon _ _ _ (cover0_C_2 c i arg2 harg2 arg3 harg3 arg4 harg4 arg5 harg5 arg6 harg6 arg7 harg7 hc0 hc1 x0 x1 xs0 xs1 xs2)]
  unfold kernelRun0_C
  dsimp only
  sl_unfold_words
  rw [View.canon_unit_zero hz3]
  simp only [View.readCov_unit_zero (S := S1x1) _ hz2, View.readCov_unit_zero (S := S1x2048) _ hz2, View.readAt_eq_ld, harg2.read_unread, harg3.read_unread, harg5.read_unread, harg6.read_unread, harg7.read_unread,
    View.ld_unit_zero (S := S1x4x2048) hz3, View.ld_unit_zero (S := S1x512x4) hz3, View.ld_unit_zero (S := S1x2048) hz2, View.ld_unit_zero (S := S1x1) hz2]
end C

end Cert.KernelIdeal.CaseValues
end
-- ==== Proof.PointRows.lean ====
/-
  The three carried rows, point after point.

  After the body at grid point t the kernel keeps the running column minima, the running sum of the row minima and the
  row |q_n|². At the first point of a batch (t ≡ 0 mod 4) they are computed from the point's blocks alone; at every other
  point from the blocks and from what point t − 1 left; and at the last point of a batch (t ≡ 3 mod 4) the output block is
  the running sum plus the sum of the column minima, both as just updated. Any float instance.
-/
import proofs.«169637_j33861522161768_2_alg».proof.Proof.CaseValues

set_option maxRecDepth 16384

noncomputable section

open Idealize.ShloMosaic Idealize.ShloMosaic.TcCoe Idealize.SL.Sem
open Idealize.ShloMosaic.Pipeline (Dat)

namespace Cert.KernelIdeal.PointRows

open Cert.KernelIdeal Cert.KernelIdeal.Gen Cert.KernelIdeal.CaseValues

variable {F : FTy → Type} [FloatOps F]
variable (m : (ℓ : Loc nD τ sig) → Buf (Elt F) ℓ) (c : Dev nD)

/-- The rows after point t: column minima, running sum, |q_n|². -/
abbrev rows (n : ℕ) (h : n < cfg0.N) : Vec F S1x2048 .f32 × Vec F S1x1 .f32 × Vec F S1x2048 .f32 := (outsAt0 m c n h).2

/-- The tile of p and the cloud q that point t reads. -/
abbrev pblk (t : Fin cfg0.N) : Vec F S1x512x4 .f32 := iblk m c 0 t
abbrev qblk (t : Fin cfg0.N) : Vec F S1x4x2048 .f32 := iblk m c 1 t

/-- The rows after the first point of a batch. -/
theorem rows_first (t : Fin cfg0.N) (h0 : t.val % 4 = 0) :
    rows m c t.val t.isLt
      = (k0_pay1 (F := F) (k0_pay9 (F := F) (pblk m c t) (qblk m c t) (k0_pay6 (F := F) (qblk m c t))) (k0_pay4 (F := F)),
         k0_pay2 (F := F) (k0_pay8 (F := F) (pblk m c t) (qblk m c t) (k0_pay6 (F := F) (qblk m c t))) (k0_pay5 (F := F)),
         k0_pay6 (F := F) (qblk m c t)) := by
  have h1 : ¬t.val % 4 = 3 := by omega
  unfold rows
  rw [outsAt0_A m c t h0 h1]
  dsimp only
  rw [first_colmin, first_sum, first_qsq]

/-- The rows after any other point, from the rows after the point before. -/
theorem rows_next (t : Fin cfg0.N) (h0 : ¬t.val % 4 = 0) :
    rows m c t.val t.isLt
      = (k0_pay1 (F := F) (k0_pay9 (F := F) (pblk m c t) (qblk m c t) (rows m c (t.val - 1) (Nat.lt_of_le_of_lt (Nat.sub_le _ _) t.isLt)).2.2)
            (rows m c (t.val - 1) (Nat.lt_of_le_of_lt (Nat.sub_le _ _) t.isLt)).1,
         k0_pay2 (F := F) (k0_pay8 (F := F) (pblk m c t) (qblk m c t) (rows m c (t.val - 1) (Nat.lt_of_le_of_lt (Nat.sub_le _ _) t.isLt)).2.2)
            (rows m c (t.val - 1) (Nat.lt_of_le_of_lt (Nat.sub_le _ _) t.isLt)).2.1,
         (rows m c (t.val - 1) (Nat.lt_of_le_of_lt (Nat.sub_le _ _) t.isLt)).2.2) := by
  unfold rows
  by_cases h1 : t.val % 4 = 3
  · rw [outsAt0_C m c t h0 h1]
    dsimp only
    rw [last_colmin, last_sum]
    rfl
  · rw [outsAt0_B m c t h0 h1]
    dsimp only
    rw [middle_colmin, middle_sum]
    rfl

/-- The output block after the last point of a batch: the running sum plus the sum of the column minima. -/
theorem out_last (t : Fin cfg0.N) (h1 : t.val % 4 = 3) :
    (outsAt0 m c t.val t.isLt).1 = k0_pay3 (F := F) (rows m c t.val t.isLt).1 (rows m c t.val t.isLt).2.1 := by
  have h0 : ¬t.val % 4 = 0 := by omega
  unfold rows
  rw [outsAt0_C m c t h0 h1]
  dsimp only
  rw [last_out, last_colmin, last_sum]

end Cert.KernelIdeal.PointRows

end
-- ==== Proof.Blocks.lean ====
/-
  What the windows read, in coordinates of the argument arrays.

  Grid point t works on batch ⌊t/4⌋: its p block is rows 512·(t mod 4) … 512·(t mod 4) + 511 of that batch of p, and its q
  block is the whole batch of q, which the host has transposed to coordinate-major before the region: entry (d, n) of the
  block is coordinate d of q_n. The output window's block is the one entry of the result array that belongs to the batch.
-/
import proofs.«169637_j33861522161768_2_alg».proof.Proof.PointRows
import proofs.«169637_j33861522161768_2_alg».proof.Proof.ChamferSpec
import Idealize.ShloMosaic.Lib.Pipeline.Value
import Idealize.ShloMosaic.Lib.StableHlo.Run
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.KernelIdeal.PointRows Chamfer

variable {F : FTy → Type} [FloatOps F]
variable (m : (ℓ : Loc nD τ sig) → Buf (Elt F) ℓ) (c : Dev nD)

/-- The block indices of the three windows at every grid point: p is cut by batch and tile, q and the result by batch. -/
theorem idx_p : ∀ t : Fin cfg0.N, win0_0.index t 0 = t.val / 4 ∧ win0_0.index t 1 = t.val % 4 ∧ win0_0.index t 2 = 0 :=
  (by decide +kernel : ∀ t : Fin grid0.N, _)
theorem idx_q : ∀ t : Fin cfg0.N, win0_1.index t 0 = t.val / 4 ∧ win0_1.index t 1 = 0 ∧ win0_1.index t 2 = 0 :=
  (by decide +kernel : ∀ t : Fin grid0.N, _)
theorem idx_o : ∀ t : Fin cfg0.N, win0_2.index t 0 = t.val / 4 ∧ win0_2.index t 1 = 0 ∧ win0_2.index t 2 = 0 :=
  (by decide +kernel : ∀ t : Fin grid0.N, _)

/-- Entry (r, d) of point t's p block is coordinate d of point 512·(t mod 4) + r of batch ⌊t/4⌋. -/
theorem pblk_apply (t : Fin cfg0.N) (r : Fin 512) (d : Fin 4) :
    pblk m c t (ix3 (0 : Fin 1) r d) = V m c main_arg0 (ix3 (batchOf t.val) (tileRow (t.val % 4) r) d) := by
  have hN : t.val < 256 := lt_of_lt_of_eq t.isLt (show cfg0.N = 256 from N_0)
  obtain ⟨i0, i1, i2⟩ := idx_p t
  unfold pblk iblk
  rw [View.read_apply]
  show V m c main_arg0 _ = V m c main_arg0 _
  refine congrArg _ (funext fun a => Fin.ext ?_)
  match a with
  | ⟨0, _⟩ => show win0_0.index t 0 * 1 + 1 * 0 = t.val / 4 % 64; rw [i0]; omega
  | ⟨1, _⟩ => show win0_0.index t 1 * 512 + 1 * r.val = (512 * (t.val % 4) + r.val) % 2048; rw [i1]; have := r.isLt; omega
  | ⟨2, _⟩ => show win0_0.index t 2 * 4 + 1 * d.val = d.val; rw [i2]; omega

/-- Entry (d, n) of point t's q block is entry (d, n) of batch ⌊t/4⌋ of the transposed q. -/
theorem qblk_apply (t : Fin cfg0.N) (d : Fin 4) (n : Fin 2048) :
    qblk m c t (ix3 (0 : Fin 1) d n) = V m c main_v0 (ix3 (batchOf t.val) d n) := by
  have hN : t.val < 256 := lt_of_lt_of_eq t.isLt (show cfg0.N = 256 from N_0)
  obtain ⟨i0, i1, i2⟩ := idx_q t
  unfold qblk iblk
  rw [View.read_apply]
  show V m c main_v0 _ = V m c main_v0 _
  refine congrArg _ (funext fun a => Fin.ext ?_)
  match a with
  | ⟨0, _⟩ => show win0_1.index t 0 * 1 + 1 * 0 = t.val / 4 % 64; rw [i0]; omega
  | ⟨1, _⟩ => show win0_1.index t 1 * 4 + 1 * d.val = d.val; rw [i1]; omega
  | ⟨2, _⟩ => show win0_1.index t 2 * 2048 + 1 * n.val = n.val; rw [i2]; omega

end Cert.KernelIdeal.Blocks

end
-- ==== Proof.LibColumnLayout.lean ====
/-
  Column vectors read at an index given by coordinates.

  A sum along the rows of an `[a, b]` array is an `[a]` vector; kept as a matrix it is the column `[a, 1]`, and a
  column is spread along the second axis to `[a, b]`. Each of these re-lays values without
  computing anything: the result at an index is the operand at one index, named here by coordinates.
    • `[a] → [a, 1]` (a shape cast): entry `(i, u)` is entry `i`, whatever the unit coordinate `u`;
    • `[a, 1] → [a, b]` (a broadcast): entry `(i, j)` is entry `(i, 0)`;
    • a sum along the second axis of an `[a, b]` array of extended reals: entry `i` is `∑ⱼ` of entry `(i, j)`.
  The companions for rows (`[a] → [1, a]`, `[1, b] → [a, b]`) and the matrix transpose are the library's.
-/
import Idealize.ShloMosaic.Lib.ValueLayout
import Idealize.ShloMosaic.PureOps.Ideal.Laws

namespace Cert.ColumnLayout

open Idealize.ShloMosaic Idealize.ShloMosaic.ValueIdx

variable {α : Type}

/-- An `[a]` array cast to the column `[a, 1]` reads, at `(i, u)`, the operand at `i`: both indices have the same
    row-major position, `i·1 + u = i` since `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A sum along the second axis of an `[a, b]` array of extended reals, from the zero accumulator, reads at `i` the sum
    over `j` of the entries `(i, j)`. The last hypothesis says that the accumulator's word, zero, is the neutral
    word of addition. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (i : Fin a) :
    multiReduction .add [1] ⟨1, ![a]⟩ src 0x00000000#32 h hφ hacc (ix1 i) = ∑ j : Fin b, src (ix2 i j) := by
  refine (Ideal.multiReduction_add_single src 0x00000000#32 h hφ hacc (ix1 i)).trans ?_
  show ∑ j : Fin b, src (h.lift (ix1 i) j) = ∑ j : Fin b, src (ix2 i j)
  refine Finset.sum_congr rfl fun j _ => congrArg src (funext fun c => Fin.ext ?_)
  match c with
  | ⟨0, _⟩ => rfl
  | ⟨1, _⟩ => rfl

end Cert.ColumnLayout
-- ==== Proof.LibMinReduce.lean ====
/-
  Reductions of a matrix of extended reals read at coordinates, at any extents: the MINIMUM along either axis of an
  [a, b] array from a start word, as a fold of `min` over the coordinates of the reduced axis (a row's nearest
  neighbour, a column's nearest neighbour), and the SUM along the first axis as a sum over its coordinates.
-/
import Idealize.ShloMosaic.Lib.ValueLayout
import Idealize.ShloMosaic.PureOps.Ideal.Laws

noncomputable section

open scoped BigOperators

namespace Cert.MinReduce

open Idealize.ShloMosaic Idealize.ShloMosaic.ValueIdx

/-- A minimum-reduction over ONE axis at the extended reals: the fold of `min` from the start word's value over that
    axis's coordinates. -/
theorem multiReduction_minimumf_single {s t : Shape} {φ : FTy} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The minimum along the second axis of an `[a, b]` array, from the start word `acc`, reads at `i` the fold of `min`
    over `j` of the entries `(i, j)`. -/
theorem rowMin_apply {a b : ℕ} (src : FVec Ideal ⟨2, ![a, b]⟩ .f32) (acc : BitVec 32)
    (h : (⟨2, ![a, b]⟩ : Shape).Reduces [1] ⟨1, ![a]⟩)
    (hφ : FKind.Formats .f32) (hacc : acc = FKind.minimumf.neutral .f32 hφ) (i : Fin a) :
    multiReduction .minimumf [1] ⟨1, ![a]⟩ src acc h hφ hacc (ix1 i)
      = (Finset.univ : Finset (Fin b)).fold min (Ideal.ofBits .f32 acc) (fun j => src (ix2 i j)) := by
  refine (multiReduction_minimumf_single src acc h hφ hacc (ix1 i)).trans ?_
  show (Finset.univ : Finset (Fin b)).fold min _ (fun j => src (h.lift (ix1 i) j)) = _
  refine congrArg (fun f => Finset.fold min (Ideal.ofBits .f32 acc) f (Finset.univ : Finset (Fin b))) (funext fun j => congrArg src (funext fun c => Fin.ext ?_))
  match c with
  | ⟨0, _⟩ => rfl
  | ⟨1, _⟩ => rfl

/-- The minimum along the first axis of an `[a, b]` array, from the start word `acc`, reads at `j` the fold of `min`
    over `i` of the entries `(i, j)`. -/
theorem colMin_apply {a b : ℕ} (src : FVec Ideal ⟨2, ![a, b]⟩ .f32) (acc : BitVec 32)
    (h : (⟨2, ![a, b]⟩ : Shape).Reduces [0] ⟨1, ![b]⟩)
    (hφ : FKind.Formats .f32) (hacc : acc = FKind.minimumf.neutral .f32 hφ) (j : Fin b) :
    multiReduction .minimumf [0] ⟨1, ![b]⟩ src acc h hφ hacc (ix1 j)
      = (Finset.univ : Finset (Fin a)).fold min (Ideal.ofBits .f32 acc) (fun i => src (ix2 i j)) := by
  refine (multiReduction_minimumf_single src acc h hφ hacc (ix1 j)).trans ?_
  show (Finset.univ : Finset (Fin a)).fold min _ (fun i => src (h.lift (ix1 j) i)) = _
  refine congrArg (fun f => Finset.fold min (Ideal.ofBits .f32 acc) f (Finset.univ : Finset (Fin a))) (funext fun i => congrArg src (funext fun c => Fin.ext ?_))
  match c with
  | ⟨0, _⟩ => rfl
  | ⟨1, _⟩ => rfl

/-- The sum along the first axis of an `[a, b]` array, from the zero accumulator, reads at `j` the sum over `i` of the
    entries `(i, j)`. -/
theorem colSum_apply {a b : ℕ} (src : FVec Ideal ⟨2, ![a, b]⟩ .f32) (h : (⟨2, ![a, b]⟩ : Shape).Reduces [0] ⟨1, ![b]⟩)
    (hφ : FKind.Formats .f32) (hacc : (0x00000000#32 : BitVec 32) = FKind.add.neutral .f32 hφ) (j : Fin b) :
    multiReduction .add [0] ⟨1, ![b]⟩ src 0x00000000#32 h hφ hacc (ix1 j) = ∑ i : Fin a, src (ix2 i j) := by
  refine (Ideal.multiReduction_add_single src 0x00000000#32 h hφ hacc (ix1 j)).trans ?_
  show ∑ i : Fin a, src (h.lift (ix1 j) i) = ∑ i : Fin a, src (ix2 i j)
  refine Finset.sum_congr rfl fun i _ => congrArg src (funext fun c => Fin.ext ?_)
  match c with
  | ⟨0, _⟩ => rfl
  | ⟨1, _⟩ => rfl

end Cert.MinReduce

end
-- ==== Proof.PayloadRead.lean ====
/-
  The body's arithmetic read entry by entry on the extended reals.

  For one grid point the body sees a tile of 512 points of p (`x0`, a [1,512,4] block), the whole cloud q of the batch laid
  coordinate-major (`x1`, a [1,4,2048] block) and the row |q_n|² (`qs`). Entry (r, n) of its distance tile is
      (Σ_d p_r,d² + |q_n|²) − 2 · (((p_r,0 q_n,0 + p_r,1 q_n,1) + p_r,2 q_n,2) + p_r,3 q_n,3);
  a row's nearest neighbour is the minimum of its entries from +∞, a column's likewise; the running column minima take the
  entrywise minimum with the tile's column minima, the running sum adds the sum of the tile's row minima, and the
  batch's result is the running sum plus the sum of the column minima.
-/
import proofs.«169637_j33861522161768_2_alg».proof.Proof.Gen.KernelIdeal.Skeleton
import proofs.«169637_j33861522161768_2_alg».proof.Proof.ChamferSpec
import proofs.«169637_j33861522161768_2_alg».proof.Proof.LibColumnLayout
import proofs.«169637_j33861522161768_2_alg».proof.Proof.LibMinReduce
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.PayloadRead

open Idealize.ShloMosaic Idealize.ShloMosaic.ValueIdx Cert.KernelIdeal Cert.KernelIdeal.Gen Cert.ColumnLayout Cert.MinReduce

/-- Entry (r, n) of the distance tile, from the point's two blocks and the row |q_n|². -/
def tileDist (x0 : Vec Ideal S1x512x4 .f32) (x1 : Vec Ideal S1x4x2048 .f32) (qs : Vec Ideal S1x2048 .f32)
    (r : Fin 512) (n : Fin 2048) : EReal :=
  ((∑ d : Fin 4, x0 (ix3 0 r d) * x0 (ix3 0 r d)) + qs (ix2 0 n))
    - Chamfer.two * (((x0 (ix3 0 r 0) * x1 (ix3 0 0 n) + x0 (ix3 0 r 1) * x1 (ix3 0 1 n))
        + x0 (ix3 0 r 2) * x1 (ix3 0 2 n)) + x0 (ix3 0 r 3) * x1 (ix3 0 3 n))

/-- A tile's |p_r|² column spread over the q-points. -/
theorem sqcol_apply (x0 : Vec Ideal S1x512x4 .f32) (h0 : S1x512x4.ShapeCasts S512x4) (h1 : S512x4.Reduces [1] S512) (hφ) (hacc)
    (h2 : S512.ShapeCasts S512x1) (h3 : S512x1.Broadcasts S512x2048) (r : Fin 512) (n : Fin 2048) :
    broadcastTo S512x2048 (shapeCast S512x1 (multiReduction (F := Ideal) .add [1] S512
        (mulf (F := Ideal) (shapeCast S512x4 x0 h0 : FVec Ideal S512x4 .f32) (shapeCast S512x4 x0 h0 : FVec Ideal S512x4 .f32)) 0x00000000#32 h1 hφ hacc) h2) h3 (ix2 r n)
      = ∑ d : Fin 4, x0 (ix3 0 r d) * x0 (ix3 0 r d) := by
  rw [broadcastTo_a1_ab_apply, shapeCast_a_a1_apply, rowSum_apply]
  refine Finset.sum_congr rfl fun d _ => ?_
  rw [mulf_apply, shapeCast_1ab_ab_apply]

/-- One term of the inner product: coordinate d of p_r against coordinate d of q_n. -/
theorem term_apply (x0 : Vec Ideal S1x512x4 .f32) (x1 : Vec Ideal S1x4x2048 .f32) (h0 : S1x512x4.ShapeCasts S512x4)
    (h0' : S1x4x2048.ShapeCasts S4x2048) (o : ℕ) (d : Fin 4) (hd : d.val = o)
    (hs1 : S512x4.Slices ![0, o] S512x1) (hs2 : S4x2048.Slices ![o, 0] S1x2048)
    (hb1 : S512x1.Broadcasts S512x2048) (hb2 : S1x2048.Broadcasts S512x2048) (r : Fin 512) (n : Fin 2048) :
    mulf (F := Ideal) (φ := .f32) (broadcastTo S512x2048 (extractStridedSlice S512x1 ![0, o] (shapeCast S512x4 x0 h0 : FVec Ideal S512x4 .f32) hs1) hb1)
        (broadcastTo S512x2048 (extractStridedSlice S1x2048 ![o, 0] (shapeCast S4x2048 x1 h0' : FVec Ideal S4x2048 .f32) hs2) hb2) (ix2 r n)
      = x0 (ix3 0 r d) * x1 (ix3 0 d n) := by
  rw [mulf_apply, broadcastTo_a1_ab_apply, broadcastTo_1b_ab_apply,
    slice2_axis1_apply o _ hs1 r (0 : Fin 1) d (by rw [hd]; rfl),
    slice2_axis0_apply o _ hs2 (0 : Fin 1) n d (by rw [hd]; rfl), shapeCast_1ab_ab_apply, shapeCast_1ab_ab_apply]

/-- The distance tile, entry by entry. -/
theorem pay7_apply (x0 : Vec Ideal S1x512x4 .f32) (x1 : Vec Ideal S1x4x2048 .f32) (qs : Vec Ideal S1x2048 .f32)
    (r : Fin 512) (n : Fin 2048) : k0_pay7 (F := Ideal) x0 x1 qs (ix2 r n) = tileDist x0 x1 qs r n := by
  unfold k0_pay7 tileDist
  refine congrArg₂ (· - ·) (congrArg₂ (· + ·) (sqcol_apply x0 _ _ _ _ _ _ r n) (broadcastTo_1b_ab_apply _ _ r n))
    (congrArg₂ (· * ·) rfl (congrArg₂ (· + ·) (congrArg₂ (· + ·) (congrArg₂ (· + ·)
      (term_apply x0 x1 _ _ 0 0 rfl _ _ _ _ r n) (term_apply x0 x1 _ _ 1 1 rfl _ _ _ _ r n))
      (term_apply x0 x1 _ _ 2 2 rfl _ _ _ _ r n)) (term_apply x0 x1 _ _ 3 3 rfl _ _ _ _ r n)))

/-- A row's nearest neighbour within the tile's rows: the minimum over the q-points, from +∞. -/
theorem pay8_apply (x0 : Vec Ideal S1x512x4 .f32) (x1 : Vec Ideal S1x4x2048 .f32) (qs : Vec Ideal S1x2048 .f32)
    (r : Fin 512) (u : Fin 1) : k0_pay8 (F := Ideal) x0 x1 qs (ix2 r u)
      = (Finset.univ : Finset (Fin 2048)).fold min Chamfer.top (fun n => tileDist x0 x1 qs r n) := by
  unfold k0_pay8
  refine (shapeCast_a_a1_apply _ _ r u).trans ?_
  refine (rowMin_apply _ _ _ _ _ r).trans ?_
  exact congrArg (fun f => Finset.fold min Chamfer.top f (Finset.univ : Finset (Fin 2048))) (funext fun n => pay7_apply x0 x1 qs r n)

/-- A column's nearest neighbour among the tile's rows: the minimum over the tile's p-points, from +∞. -/
theorem pay9_apply (x0 : Vec Ideal S1x512x4 .f32) (x1 : Vec Ideal S1x4x2048 .f32) (qs : Vec Ideal S1x2048 .f32)
    (n : Fin 2048) : k0_pay9 (F := Ideal) x0 x1 qs (ix1 n)
      = (Finset.univ : Finset (Fin 512)).fold min Chamfer.top (fun r => tileDist x0 x1 qs r n) := by
  unfold k0_pay9
  refine (colMin_apply _ _ _ _ _ n).trans ?_
  exact congrArg (fun f => Finset.fold min Chamfer.top f (Finset.univ : Finset (Fin 512))) (funext fun r => pay7_apply x0 x1 qs r n)

/-- The running column minima take the entrywise minimum with the tile's. -/
theorem pay1_apply (v42 : FVec Ideal S2048 .f32) (v44 : Vec Ideal S1x2048 .f32) (u : Fin 1) (n : Fin 2048) :
    k0_pay1 (F := Ideal) v42 v44 (ix2 u n) = min (v44 (ix2 u n)) (v42 (ix1 n)) := by
  unfold k0_pay1
  rw [shapeCast_self]
  exact congrArg (min (v44 (ix2 u n))) (shapeCast_a_1a_apply _ _ u n)

/-- The running sum adds the sum of the tile's row minima. -/
theorem pay2_apply (v41 : FVec Ideal S512x1 .f32) (v51 : Vec Ideal S1x1 .f32) (u u' : Fin 1) :
    k0_pay2 (F := Ideal) v41 v51 (ix2 u u') = v51 (ix2 u u') + ∑ r : Fin 512, v41 (ix2 r (0 : Fin 1)) := by
  unfold k0_pay2
  rw [shapeCast_self]
  refine congrArg (v51 (ix2 u u') + ·) ?_
  refine (shapeCast_a_1a_apply _ _ u u').trans ?_
  obtain rfl : u' = 0 := Subsingleton.elim _ _
  exact colSum_apply _ _ _ _ (0 : Fin 1)

/-- The batch's result: the running sum plus the sum of the column minima. -/
theorem pay3_apply (v59 : Vec Ideal S1x2048 .f32) (v62 : Vec Ideal S1x1 .f32) (u u' u'' : Fin 1) :
    k0_pay3 (F := Ideal) v59 v62 (ix3 u u' u'') = v62 (ix2 (0 : Fin 1) (0 : Fin 1)) + ∑ n : Fin 2048, v59 (ix2 (0 : Fin 1) n) := by
  unfold k0_pay3
  obtain rfl : u = 0 := Subsingleton.elim _ _
  obtain rfl : u' = 0 := Subsingleton.elim _ _
  obtain rfl : u'' = 0 := Subsingleton.elim _ _
  refine (shapeCast_ab_1ab_apply _ _ (0 : Fin 1) (0 : Fin 1) (0 : Fin 1)).trans ?_
  refine congrArg (v62 (ix2 (0 : Fin 1) (0 : Fin 1)) + ·) ?_
  refine (shapeCast_a_1a_apply _ _ (0 : Fin 1) (0 : Fin 1)).trans ?_
  exact rowSum_apply _ _ _ _ (0 : Fin 1)

/-- The first point of a batch starts the column minima from +∞ -/
theorem pay4_apply (i : S1x2048.Idx) : k0_pay4 (F := Ideal) i = Chamfer.top := by
  unfold k0_pay4
  rw [shapeCast_self]
  rfl

/-- and the running sum from the zero word. -/
theorem pay5_apply (i : S1x1.Idx) : k0_pay5 (F := Ideal) i = Ideal.ofBits .f32 0x00000000#32 := by
  unfold k0_pay5
  rw [shapeCast_self]
  rfl

/-- The row |q_n|² from the q block. -/
theorem pay6_apply (x1 : Vec Ideal S1x4x2048 .f32) (u : Fin 1) (n : Fin 2048) :
    k0_pay6 (F := Ideal) x1 (ix2 u n) = ∑ d : Fin 4, x1 (ix3 0 d n) * x1 (ix3 0 d n) := by
  unfold k0_pay6
  rw [shapeCast_self]
  refine (shapeCast_a_1a_apply _ _ u n).trans ?_
  refine (colSum_apply _ _ _ _ n).trans ?_
  refine Finset.sum_congr rfl fun d _ => ?_
  rw [mulf_apply, shapeCast_1ab_ab_apply]

end Cert.KernelIdeal.PayloadRead

end
-- ==== Proof.KernelRows.lean ====
/-
  The carried rows in closed form, on the extended reals.

  By induction over the grid points: after point t of batch b = ⌊t/4⌋ the column-minima row holds, at q-point n, the minimum
  from +∞ of dist(p_r, q_n) over the p-points of tiles 0 … t mod 4; the running sum holds the zero word plus the sum of the row
  minima of those tiles; and the third row holds |q_n|². Every step rewrites the body's arithmetic entry by entry; the only laws
  used are that a four-term sum is the sum over the four coordinates.
-/
import proofs.«169637_j33861522161768_2_alg».proof.Proof.Blocks
import proofs.«169637_j33861522161768_2_alg».proof.Proof.PayloadRead

set_option maxRecDepth 16384

noncomputable section

open scoped BigOperators
open Idealize.ShloMosaic Idealize.ShloMosaic.TcCoe Idealize.SL.Sem Idealize.ShloMosaic.ValueIdx

namespace Cert.KernelIdeal.KernelRows

open Cert.KernelIdeal Cert.KernelIdeal.Gen Cert.KernelIdeal.PointRows Cert.KernelIdeal.Blocks Cert.KernelIdeal.PayloadRead Chamfer

/-- The distance tile of a point whose blocks are tile j of p and the cloud q of batch b. -/
theorem tileDist_eq (P Q : Cloud) (b : Fin 64) (j : ℕ) (x0 : Vec Ideal S1x512x4 .f32) (x1 : Vec Ideal S1x4x2048 .f32)
    (qs : Vec Ideal S1x2048 .f32) (h0 : ∀ r d, x0 (ix3 (0 : Fin 1) r d) = P (ix3 b (tileRow j r) d))
    (h1 : ∀ d n, x1 (ix3 (0 : Fin 1) d n) = Q (ix3 b n d)) (hq : ∀ n, qs (ix2 (0 : Fin 1) n) = Chamfer.sq Q b n)
    (r : Fin 512) (n : Fin 2048) : tileDist x0 x1 qs r n = Chamfer.dist P Q b (tileRow j r) n := by
  simp only [tileDist, Chamfer.dist, Chamfer.sq, Chamfer.cross, h0, h1, hq, Fin.sum_univ_four]

/-- The body's three reductions at such a point: the tile's column minima, its row minima, and |q_n|². -/
theorem point_values (P Q : Cloud) (b : Fin 64) (j : ℕ) (x0 : Vec Ideal S1x512x4 .f32) (x1 : Vec Ideal S1x4x2048 .f32)
    (qs : Vec Ideal S1x2048 .f32) (h0 : ∀ r d, x0 (ix3 (0 : Fin 1) r d) = P (ix3 b (tileRow j r) d))
    (h1 : ∀ d n, x1 (ix3 (0 : Fin 1) d n) = Q (ix3 b n d)) (hq : ∀ n, qs (ix2 (0 : Fin 1) n) = Chamfer.sq Q b n) :
    (∀ n, k0_pay9 (F := Ideal) x0 x1 qs (ix1 n) = tileColMin P Q b j n)
      ∧ (∑ r : Fin 512, k0_pay8 (F := Ideal) x0 x1 qs (ix2 r (0 : Fin 1))) = tileRowSum P Q b j := by
  refine ⟨fun n => ?_, ?_⟩
  · rw [pay9_apply]
    exact congrArg (fun f => Finset.fold min top f (Finset.univ : Finset (Fin 512)))
      (funext fun r => tileDist_eq P Q b j x0 x1 qs h0 h1 hq r n)
  · refine Finset.sum_congr rfl fun r _ => ?_
    rw [pay8_apply]
    exact congrArg (fun f => Finset.fold min top f (Finset.univ : Finset (Fin 2048)))
      (funext fun n => tileDist_eq P Q b j x0 x1 qs h0 h1 hq r n)

/-- |q_n|² from the coordinate-major q block. -/
theorem qsq_value (Q : Cloud) (b : Fin 64) (x1 : Vec Ideal S1x4x2048 .f32)
    (h1 : ∀ d n, x1 (ix3 (0 : Fin 1) d n) = Q (ix3 b n d)) (n : Fin 2048) :
    k0_pay6 (F := Ideal) x1 (ix2 (0 : Fin 1) n) = Chamfer.sq Q b n := by
  rw [pay6_apply]
  simp only [Chamfer.sq, h1]

variable (m : (ℓ : Loc nD τ sig) → Buf (Elt Ideal) ℓ) (c : Dev nD)

/-- The two clouds as launched. -/
abbrev P : Cloud := m ((c : Thread nD τ).loc main_arg0)
abbrev Q : Cloud := m ((c : Thread nD τ).loc main_arg1)

/-- The host transposes q to coordinate-major before the region. -/
theorem qT_apply (b : Fin 64) (d : Fin 4) (n : Fin 2048) : V m c main_v0 (ix3 b d n) = Q m c (ix3 b n d) := by
  have e : (V m c main_v0 : S64x4x2048.Idx → EReal)
      = transpose S64x4x2048 [0, 2, 1] (m ((c : Thread nD τ).loc main_arg1)) Facts₀.transposes_S64x2048x4_S64x4x2048_0_2_1 := by
    dsimp only [Gen.V, Gen.V0]
    simp only [Gen.hostOps0, List.flatten_cons, List.flatten_nil, List.append_nil]
    after_results
  rw [e]
  refine transpose_apply _ _ _ _ _ fun a => ?_
  match a with
  | ⟨0, _⟩ => rfl
  | ⟨1, _⟩ => rfl
  | ⟨2, _⟩ => rfl

/-- What point t's blocks are, in the clouds' coordinates. -/
theorem p_block (t : Fin cfg0.N) (r : Fin 512) (d : Fin 4) :
    pblk m c t (ix3 (0 : Fin 1) r d) = P m c (ix3 (batchOf t.val) (tileRow (t.val % 4) r) d) := by
  rw [pblk_apply, V_main_arg0]
theorem q_block (t : Fin cfg0.N) (d : Fin 4) (n : Fin 2048) :
    qblk m c t (ix3 (0 : Fin 1) d n) = Q m c (ix3 (batchOf t.val) n d) := by
  rw [qblk_apply, qT_apply]

/-- Consecutive points of one batch. -/
theorem batchOf_succ (n : ℕ) (h : ¬(n + 1) % 4 = 0) : batchOf (n + 1) = batchOf n := by
  unfold batchOf; apply Fin.ext; show (n + 1) / 4 % 64 = n / 4 % 64; omega

/-- THE INVARIANT: the three rows after point n. -/
theorem rows_inv : ∀ (n : ℕ) (h : n < cfg0.N),
    (∀ k : Fin 2048, (rows m c n h).1 (ix2 (0 : Fin 1) k) = colAcc (P m c) (Q m c) (batchOf n) (n % 4) k)
      ∧ (rows m c n h).2.1 (ix2 (0 : Fin 1) (0 : Fin 1)) = sumAcc (P m c) (Q m c) (batchOf n) (n % 4)
      ∧ (∀ k : Fin 2048, (rows m c n h).2.2 (ix2 (0 : Fin 1) k) = Chamfer.sq (Q m c) (batchOf n) k) := by
  intro n
  induction n with
  | zero =>
    intro h
    have hr := rows_first m c ⟨0, h⟩ rfl
    have hq := qsq_value (Q m c) (batchOf 0) (qblk m c ⟨0, h⟩) (fun d n => q_block m c ⟨0, h⟩ d n)
    obtain ⟨hc, hs⟩ := point_values (P m c) (Q m c) (batchOf 0) (0 % 4) (pblk m c ⟨0, h⟩) (qblk m c ⟨0, h⟩)
      (k0_pay6 (F := Ideal) (qblk m c ⟨0, h⟩)) (fun r d => p_block m c ⟨0, h⟩ r d) (fun d n => q_block m c ⟨0, h⟩ d n) hq
    refine ⟨fun k => ?_, ?_, fun k => ?_⟩
    · rw [show rows m c 0 h = _ from hr]; dsimp only
      rw [pay1_apply, pay4_apply, hc]; rfl
    · rw [show rows m c 0 h = _ from hr]; dsimp only
      rw [pay2_apply, pay5_apply, hs]; rfl
    · rw [show rows m c 0 h = _ from hr]; dsimp only
      exact hq k
  | succ n ih =>
    intro h
    have hn : n < cfg0.N := Nat.lt_of_succ_lt h
    obtain ⟨ihc, ihs, ihq⟩ := ih hn
    by_cases h0 : (n + 1) % 4 = 0
    · have hr := rows_first m c ⟨n + 1, h⟩ h0
      have hq := qsq_value (Q m c) (batchOf (n + 1)) (qblk m c ⟨n + 1, h⟩) (fun d k => q_block m c ⟨n + 1, h⟩ d k)
      obtain ⟨hc, hs⟩ := point_values (P m c) (Q m c) (batchOf (n + 1)) ((n + 1) % 4) (pblk m c ⟨n + 1, h⟩) (qblk m c ⟨n + 1, h⟩)
        (k0_pay6 (F := Ideal) (qblk m c ⟨n + 1, h⟩)) (fun r d => p_block m c ⟨n + 1, h⟩ r d) (fun d k => q_block m c ⟨n + 1, h⟩ d k) hq
      refine ⟨fun k => ?_, ?_, fun k => ?_⟩
      · rw [show rows m c (n + 1) h = _ from hr]; dsimp only
        rw [pay1_apply, pay4_apply, hc, h0]; rfl
      · rw [show rows m c (n + 1) h = _ from hr]; dsimp only
        rw [pay2_apply, pay5_apply, hs, h0]; rfl
      · rw [show rows m c (n + 1) h = _ from hr]; dsimp only
        exact hq k
    · have hr : rows m c (n + 1) h
          = (k0_pay1 (F := Ideal) (k0_pay9 (F := Ideal) (pblk m c ⟨n + 1, h⟩) (qblk m c ⟨n + 1, h⟩) (rows m c n hn).2.2) (rows m c n hn).1,
             k0_pay2 (F := Ideal) (k0_pay8 (F := Ideal) (pblk m c ⟨n + 1, h⟩) (qblk m c ⟨n + 1, h⟩) (rows m c n hn).2.2) (rows m c n hn).2.1,
             (rows m c n hn).2.2) := rows_next m c ⟨n + 1, h⟩ h0
      have hb := batchOf_succ n h0
      have hj : (n + 1) % 4 = n % 4 + 1 := by omega
      have hq : ∀ k : Fin 2048, (rows m c n hn).2.2 (ix2 (0 : Fin 1) k) = Chamfer.sq (Q m c) (batchOf (n + 1)) k := by
        intro k; rw [hb]; exact ihq k
      obtain ⟨hc, hs⟩ := point_values (P m c) (Q m c) (batchOf (n + 1)) ((n + 1) % 4) (pblk m c ⟨n + 1, h⟩) (qblk m c ⟨n + 1, h⟩)
        (rows m c n hn).2.2 (fun r d => p_block m c ⟨n + 1, h⟩ r d) (fun d k => q_block m c ⟨n + 1, h⟩ d k) hq
      refine ⟨fun k => ?_, ?_, fun k => ?_⟩
      · rw [hr]; dsimp only
        rw [pay1_apply, hc, ihc k, hb, hj]; rfl
      · rw [hr]; dsimp only
        rw [pay2_apply, hs, ihs, hb, hj]; rfl
      · rw [hr]; dsimp only
        exact hq k

/-- So the block written after the last point of batch b is the batch's share of the loss, accumulated tile by tile. -/
theorem out_value (t : Fin cfg0.N) (h1 : t.val % 4 = 3) :
    (outsAt0 m c t.val t.isLt).1 (ix3 (0 : Fin 1) (0 : Fin 1) (0 : Fin 1)) = batchOut (P m c) (Q m c) (batchOf t.val) := by
  obtain ⟨hc, hs, -⟩ := rows_inv m c t.val t.isLt
  rw [out_last m c t h1, pay3_apply, hs, h1]
  unfold batchOut
  refine congrArg (sumAcc (P m c) (Q m c) (batchOf t.val) 3 + ·) (Finset.sum_congr rfl fun k _ => ?_)
  rw [hc k, h1]

end Cert.KernelIdeal.KernelRows

end
-- ==== Proof.ChamferTiles.lean ====
/-
  The tiled accumulation of the Chamfer loss gives the loss.

  A pass over batch b visits the 2048 points of p in four tiles of 512 consecutive points, point r of tile j being
  the point 512·j + r.  The column accumulator after the fourth tile is +∞ lowered in turn by the four tiles'
  column minima, which is the minimum over all 2048 points; the sum accumulator after the fourth tile is 0 raised
  in turn by the four tiles' sums of row minima, which is the sum over all 2048 points, because every point is
  512·(x / 512) + x % 512 for exactly one pair (tile, row).  Adding the two and summing over the batches gives
  the loss.  Only the laws of a commutative additive monoid and of a linear order are used.
-/
import proofs.«169637_j33861522161768_2_alg».proof.Proof.ChamferSpec
import proofs.«169637_j33861522161768_2_alg».proof.Proof.RefChamfer
import Mathlib.Algebra.BigOperators.Fin
import Mathlib.Data.Finset.Fold

noncomputable section

open scoped BigOperators

namespace Chamfer.Tiles

open Idealize.ShloMosaic
open Cert.ReferenceIdeal.RefValue (fold_min_four_tiles_of top_eq)

/-- Row r of tile j, for j one of the four tiles, is the point 512·j + r: it is below 2048, so the reduction
    modulo 2048 does nothing. -/
theorem tileRow_eq (j : Fin 4) (r : Fin 512) :
    Chamfer.tileRow j.val r = ⟨512 * j.val + r.val, by have := j.isLt; have := r.isLt; omega⟩ :=
  Fin.ext (Nat.mod_eq_of_lt (by have := j.isLt; have := r.isLt; omega))

/-- The pairs (tile, row) are the 2048 points: (j, r) is the point 512·j + r, and the point x is the pair
    (x / 512, x % 512). -/
def tileEquiv : Fin 4 × Fin 512 ≃ Fin 2048 where
  toFun p := ⟨512 * p.1.val + p.2.val, by have := p.1.isLt; have := p.2.isLt; omega⟩
  invFun x := (⟨x.val / 512, by have := x.isLt; omega⟩, ⟨x.val % 512, Nat.mod_lt _ (by decide)⟩)
  left_inv p := by
    have h1 := p.1.isLt
    have h2 := p.2.isLt
    refine Prod.ext (Fin.ext ?_) (Fin.ext ?_)
    · show (512 * p.1.val + p.2.val) / 512 = p.1.val
      omega
    · show (512 * p.1.val + p.2.val) % 512 = p.2.val
      omega
  right_inv x := Fin.ext (by
    show 512 * (x.val / 512) + x.val % 512 = x.val
    omega)

/-- A sum over the 2048 points is the sum of the four tiles' sums, in a commutative additive monoid. -/
theorem sum_four_tiles {M : Type*} [AddCommMonoid M] (f : Fin 2048 → M) :
    ∑ x : Fin 2048, f x
      = (∑ r : Fin 512, f (tileEquiv (0, r))) + (∑ r : Fin 512, f (tileEquiv (1, r)))
        + (∑ r : Fin 512, f (tileEquiv (2, r))) + (∑ r : Fin 512, f (tileEquiv (3, r))) := by
  rw [← Equiv.sum_comp tileEquiv f, Fintype.sum_prod_type, Fin.sum_univ_four]

variable (P Q : Chamfer.Cloud)

/-- The column accumulator after the fourth tile is the column minimum. -/
theorem colAcc_three (b : Fin 64) (n : Fin 2048) : Chamfer.colAcc P Q b 3 n = Chamfer.colMin P Q b n := by
  show min (min (min (min Chamfer.top (Chamfer.tileColMin P Q b 0 n)) (Chamfer.tileColMin P Q b 1 n))
      (Chamfer.tileColMin P Q b 2 n)) (Chamfer.tileColMin P Q b 3 n) = _
  unfold Chamfer.colMin
  exact (fold_min_four_tiles_of (fun r => Chamfer.dist P Q b r n) Chamfer.top
    (fun j r => Chamfer.dist P Q b (Chamfer.tileRow j.val r) n)
    (fun j r => by rw [tileRow_eq])).symm

/-- The sum accumulator after the fourth tile is the sum of the row minima. -/
theorem sumAcc_three (b : Fin 64) : Chamfer.sumAcc P Q b 3 = ∑ n : Fin 2048, Chamfer.rowMin P Q b n := by
  show Ideal.ofBits .f32 0x00000000#32 + Chamfer.tileRowSum P Q b 0 + Chamfer.tileRowSum P Q b 1
      + Chamfer.tileRowSum P Q b 2 + Chamfer.tileRowSum P Q b 3 = _
  rw [Ideal.ofBits_zero_f32, zero_add, sum_four_tiles]
  unfold Chamfer.tileRowSum
  have e : ∀ (j : Fin 4) (r : Fin 512), Chamfer.tileRow j.val r = tileEquiv (j, r) := fun j r => tileRow_eq j r
  have s : ∀ j : Fin 4, ∑ r : Fin 512, Chamfer.rowMin P Q b (Chamfer.tileRow j.val r)
      = ∑ r : Fin 512, Chamfer.rowMin P Q b (tileEquiv (j, r)) := fun j =>
    Finset.sum_congr rfl fun r _ => by rw [e]
  exact congrArg₂ (· + ·) (congrArg₂ (· + ·) (congrArg₂ (· + ·) (s 0) (s 1)) (s 2)) (s 3)

/-- Summed over the batches, what the tiled pass leaves is the Chamfer loss. -/
theorem sum_batchOut : ∑ b : Fin 64, Chamfer.batchOut P Q b = Chamfer.chamfer P Q := by
  unfold Chamfer.chamfer
  refine Finset.sum_congr rfl fun b _ => ?_
  unfold Chamfer.batchOut
  rw [sumAcc_three, Finset.sum_add_distrib]
  exact congrArg (_ + ·) (Finset.sum_congr rfl fun n _ => colAcc_three P Q b n)

end Chamfer.Tiles

end
-- ==== Proof.KernelValue.lean ====
/-
  The kernel's result, read off its run.

  The region's result array has one entry per batch, written after the batch's last point: by the invariant of the carried
  rows it is the batch's share of the loss. The host then adds the 64 entries from the zero word and adds the jet term, which
  it computes from the two arguments alone. The sum over the batches of their shares is the Chamfer loss.
-/
import proofs.«169637_j33861522161768_2_alg».proof.Proof.KernelRows
import proofs.«169637_j33861522161768_2_alg».proof.Proof.ChamferTiles
import Idealize.ShloMosaic.Lib.Pipeline.Value
import Idealize.ShloMosaic.Lib.StableHlo.Run
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.KernelValue

open Cert.KernelIdeal Cert.KernelIdeal.Gen Cert.KernelIdeal.PointRows Cert.KernelIdeal.Blocks Cert.KernelIdeal.KernelRows Chamfer

variable (m : (ℓ : Loc nD τ sig) → Buf (Elt Ideal) ℓ) (ρ : Dev nD → PrngReg) (c : Dev nD)

/-- The region's result array: entry b is batch b's share of the loss. -/
def shares : S64x1x1.Idx → EReal := fun i => batchOut (P m c) (Q m c) (i 0)

/-- What the last point of a batch writes back is its block of `shares`. -/
theorem flushed_eq (t : Fin cfg0.N) (hf : (cfg0.win 2).flush t = true) :
    (dats m 0 c).flushed 2 t = ((cfg0.win 2).blk t).view.read (Elt Ideal) (shares m c) := by
  have h3 : t.val % 4 = 3 := (flush0_2 t).mp hf
  have hN : t.val < 256 := lt_of_lt_of_eq t.isLt (show cfg0.N = 256 from N_0)
  obtain ⟨i0, i1, i2⟩ := idx_o t
  show (cfg0.win 2).cut (grid0.coords t) ((dats m 0 c).after 2 t) = _
  rw [after0_2]
  funext j
  obtain ⟨u0, u1, u2, rfl⟩ : ∃ (a b d : Fin 1), j = ix3 a b d := ⟨j 0, j 1, j 2, eq_ix3 j⟩
  obtain rfl : u0 = 0 := Subsingleton.elim _ _
  obtain rfl : u1 = 0 := Subsingleton.elim _ _
  obtain rfl : u2 = 0 := Subsingleton.elim _ _
  show (outsAt0 m c t.val t.isLt).1 (ix3 (0 : Fin 1) (0 : Fin 1) (0 : Fin 1)) = shares m c (((cfg0.win 2).blk t).view.emb (ix3 (0 : Fin 1) (0 : Fin 1) (0 : Fin 1)))
  rw [out_value m c t h3]
  unfold shares
  refine congrArg (batchOut (P m c) (Q m c)) (Fin.ext ?_)
  show t.val / 4 % 64 = win0_2.index t 0 * 1 + 1 * 0
  rw [i0]; omega

/-- An entry of the result array is in point t's block iff its coordinates are in the block's ranges. -/
theorem mem_blk (t : Fin cfg0.N) (i : S64x1x1.Idx) :
    i ∈ ((cfg0.win 2).blk t).view.set ↔ ∀ a : Fin 3, win0_2.index t a * S1x1x1.size a ≤ (i a).val ∧ (i a).val < win0_2.index t a * S1x1x1.size a + S1x1x1.size a := by
  show i ∈ ((View.whole main_v1).slice (win0_2.rect t)).set ↔ _
  rw [View.set_slice_whole, Rect.mem_set_unit]
  exact Iff.rfl

/-- The result array after the region. -/
theorem final_shares : (dats m 0 c).arrAt 2 cfg0.N = shares m c :=
  (dats m 0 c).arrAt_eq_of_cover 2 (shares m c) (flushed_eq m c) fun i => by
    have hb : (i 0).val < 64 := (i 0).isLt
    have h1 : (i 1).val < 1 := (i 1).isLt
    have h2 : (i 2).val < 1 := (i 2).isLt
    have hlt : 4 * (i 0).val + 3 < cfg0.N := by rw [show cfg0.N = 256 from N_0]; omega
    obtain ⟨i0, i1, i2⟩ := idx_o ⟨4 * (i 0).val + 3, hlt⟩
    refine ⟨⟨4 * (i 0).val + 3, hlt⟩, (flush0_2 _).mpr (by show (4 * (i 0).val + 3) % 4 = 3; omega), ?_⟩
    rw [mem_blk]
    intro a
    match a with
    | ⟨0, _⟩ => show win0_2.index ⟨4 * (i 0).val + 3, hlt⟩ 0 * 1 ≤ (i 0).val ∧ (i 0).val < win0_2.index ⟨4 * (i 0).val + 3, hlt⟩ 0 * 1 + 1
                rw [i0]; show (4 * (i 0).val + 3) / 4 * 1 ≤ (i 0).val ∧ (i 0).val < (4 * (i 0).val + 3) / 4 * 1 + 1; omega
    | ⟨1, _⟩ => show win0_2.index ⟨4 * (i 0).val + 3, hlt⟩ 1 * 1 ≤ (i 1).val ∧ (i 1).val < win0_2.index ⟨4 * (i 0).val + 3, hlt⟩ 1 * 1 + 1
                rw [i1]; omega
    | ⟨2, _⟩ => show win0_2.index ⟨4 * (i 0).val + 3, hlt⟩ 2 * 1 ≤ (i 2).val ∧ (i 2).val < win0_2.index ⟨4 * (i 0).val + 3, hlt⟩ 2 * 1 + 1
                rw [i2]; omega

/-- The jet term as the host computes it after the region: the squared difference of the clouds' coordinate sums, summed,
    times the word of 1. -/
def jet (p q : Cloud) : S_.Idx → EReal :=
  mulf (F := Ideal) (constant (F := Ideal) S_ .f32 0x3F800000#32)
    (Host.reduceAdd (F := Ideal)
      (mulf (F := Ideal)
        (subf (F := Ideal) (Host.reduceAdd (F := Ideal) p (constant (F := Ideal) S_ .f32 0x00000000#32) Facts₀.reducesTo_S64x2048x4_S64x4_d1 Facts₀.h_S_)
          (Host.reduceAdd (F := Ideal) q (constant (F := Ideal) S_ .f32 0x00000000#32) Facts₀.reducesTo_S64x2048x4_S64x4_d1 Facts₀.h_S_))
        (subf (F := Ideal) (Host.reduceAdd (F := Ideal) p (constant (F := Ideal) S_ .f32 0x00000000#32) Facts₀.reducesTo_S64x2048x4_S64x4_d1 Facts₀.h_S_)
          (Host.reduceAdd (F := Ideal) q (constant (F := Ideal) S_ .f32 0x00000000#32) Facts₀.reducesTo_S64x2048x4_S64x4_d1 Facts₀.h_S_)))
      (constant (F := Ideal) S_ .f32 0x00000000#32) Facts₀.reducesTo_S64x4_S_d0_1 Facts₀.h_S_)

/-- The host's lines after the region, on the result array and the two arguments. -/
theorem tail_value : Pipeline.afterTail₀ cfgs (dats m) 0 (V0 m) [hostOps1] c main_v9
    = addf (F := Ideal) (Host.reduceAdd (F := Ideal) (shares m c) (constant (F := Ideal) S_ .f32 0x00000000#32) Facts₀.reducesTo_S64x1x1_S_d0_1_2 Facts₀.h_S_)
        (jet (P m c) (Q m c)) := by
  unfold Pipeline.afterTail₀
  show StableHlo.after hostOps1 _ (Proc.devRef .tc main_v9) = _
  after_results
  have e1 : Pipeline.withArrays (cfgs 0).spec c (V0 m c) (fun w => (dats m 0 c).arrAt w (cfgs 0).N) (Proc.devRef .tc main_v1)
      = shares m c := (Pipeline.withArrays_arr spec0 launch0.win.arr_inj c _ _ 2).trans (final_shares m c)
  have e0 : Pipeline.withArrays (cfgs 0).spec c (V0 m c) (fun w => (dats m 0 c).arrAt w (cfgs 0).N) (Proc.devRef .tc main_arg0)
      = P m c := (Pipeline.withArrays_arr spec0 launch0.win.arr_inj c _ _ 0).trans
        (((dats m 0 c).arrAt_in 0 rfl _).trans ((A_eq m c 0).trans (V_main_arg0 m c)))
  have e2 : Pipeline.withArrays (cfgs 0).spec c (V0 m c) (fun w => (dats m 0 c).arrAt w (cfgs 0).N) (Proc.devRef .tc main_arg1)
      = Q m c := (Pipeline.withArrays_of_ne _ c (V0 m c) _ main_arg1 (by exact (by decide : ∀ w, Pipeline.arrRef spec0 w ≠ main_arg1))).trans
        (V_main_arg1 m c)
  rw [e1, e0, e2]
  rfl

/-- The sum of the 64 shares from the zero word is the Chamfer loss. -/
theorem sum_shares (i : S_.Idx) :
    Host.reduceAdd (F := Ideal) (shares m c) (constant (F := Ideal) S_ .f32 0x00000000#32) Facts₀.reducesTo_S64x1x1_S_d0_1_2 Facts₀.h_S_ i
      = chamfer (P m c) (Q m c) := by
  have e : Host.reduceAdd (F := Ideal) (shares m c) (constant (F := Ideal) S_ .f32 0x00000000#32) Facts₀.reducesTo_S64x1x1_S_d0_1_2 Facts₀.h_S_ i
      = Ideal.ofBits .f32 0x00000000#32 + ∑ j : S64x1x1.Idx, shares m c j := by
    generalize shares m c = y0
    simp only [Host.reduceAdd, Ideal.hostReduceAdd_def]
    exact Ideal.hostReduceAdd_total Facts₀.reducesTo_S64x1x1_S_d0_1_2 (fun b => b.elim0) y0 _ i
  rw [e, Ideal.ofBits_zero_f32, zero_add, ← Chamfer.Tiles.sum_batchOut]
  let φ : Fin 64 ≃ S64x1x1.Idx :=
    { toFun := fun b => ix3 b (0 : Fin 1) (0 : Fin 1)
      invFun := fun j => j 0
      left_inv := fun b => rfl
      right_inv := fun j => by
        funext a
        match a with
        | ⟨0, _⟩ => rfl
        | ⟨1, _⟩ => exact Fin.ext (by have h : (j 1).val < 1 := (j 1).isLt; show (0 : ℕ) = (j 1).val; omega)
        | ⟨2, _⟩ => exact Fin.ext (by have h : (j 2).val < 1 := (j 2).isLt; show (0 : ℕ) = (j 2).val; omega) }
  exact (Equiv.sum_comp φ (shares m c)).symm

/-- The kernel's result: the Chamfer loss plus the jet term. -/
def result : Buf (Elt Ideal) ((c : Thread nD τ).loc main_v9) := fun i => chamfer (P m c) (Q m c) + jet (P m c) (Q m c) i

/-- THE RUN, READ: every execution ends with the result at the Chamfer loss plus the jet term, the arguments unchanged. -/
theorem run : θ_run defs (onTc (τ := τ) (main (F := Ideal))) ⟨m, fun _ => 0, ρ⟩ fun r => ∀ c : Dev nD,
      r.2.mem ((c.tc : Thread nD τ).loc main_v9) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v9 (Pipeline.mem_restRefs_of main_v9 (by decide) (by decide))).trans
        ((tail_value m c).trans (funext fun i => congrArg (· + jet (P m c) (Q m c) i) (sum_shares m c i))),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.KernelValue

end
-- ==== Proof.lean ====
/-
  The certificate: a tiled Chamfer-loss kernel against its jnp reference, on the extended reals.

  Both programs take two clouds p, q of 2048 points in four coordinates, 64 batches at once, and return
      Σ_b Σ_n ( min_m dist(p_n, q_m) + min_r dist(p_r, q_n) )  +  1 · Σ_b Σ_d (Σ_n p_n,d − Σ_n q_n,d)²,
  with dist(p_r, q_n) = (|p_r|² + |q_n|²) − 2·⟨p_r, q_n⟩ in its expanded form and every minimum taken from +∞.

  The reference forms the whole 2048 × 2048 distance array per batch and reduces it along either axis. The kernel visits a
  batch in four grid points, each on a tile of 512 points of p against all of q (transposed to coordinate-major by the host);
  it carries between the points the column minima so far, the sum of the row minima so far and the row |q_n|², and after the
  fourth point writes sum + Σ_n column minimum; the host adds the 64 entries. The two agree because a minimum over 2048 points
  is the minimum of the minima over the four tiles, a sum over 2048 points the sum of the four tiles' sums, and
  Σ_n (a_n + b_n) = Σ_n a_n + Σ_n b_n: laws of a commutative monoid and of a linear order, which hold at infinite values too,
  so the inputs' finiteness is never used. The inner product is spelt as a four-term sum in the kernel and as a contraction in
  the reference: the same sum over the four coordinates. The jet term is computed by the same host operations in both programs.

  The rewriting pass changed nothing between the kernel and its idealization, so that claim is trivial; the three frame claims
  are the generated runs.
-/
import proofs.«169637_j33861522161768_2_alg».proof.Defs
import proofs.«169637_j33861522161768_2_alg».proof.Proof.Gen.Kernel
import proofs.«169637_j33861522161768_2_alg».proof.Proof.Gen.Kernel.Skeleton
import proofs.«169637_j33861522161768_2_alg».proof.Proof.Gen.Kernel.Launch
import proofs.«169637_j33861522161768_2_alg».proof.Proof.Gen.Kernel.Points
import proofs.«169637_j33861522161768_2_alg».proof.Proof.Gen.Kernel.Frame
import proofs.«169637_j33861522161768_2_alg».proof.Proof.Gen.KernelIdeal
import proofs.«169637_j33861522161768_2_alg».proof.Proof.Gen.KernelIdeal.Skeleton
import proofs.«169637_j33861522161768_2_alg».proof.Proof.Gen.KernelIdeal.Launch
import proofs.«169637_j33861522161768_2_alg».proof.Proof.Gen.KernelIdeal.Points
import proofs.«169637_j33861522161768_2_alg».proof.Proof.Gen.KernelIdeal.Frame
import proofs.«169637_j33861522161768_2_alg».proof.Proof.Gen.ReferenceIdeal
import proofs.«169637_j33861522161768_2_alg».proof.Proof.Gen.Pre_finite_inputs
import proofs.«169637_j33861522161768_2_alg».proof.Proof.Gen.ReferenceIdeal.Run
import proofs.«169637_j33861522161768_2_alg».proof.Proof.Gen.ReferenceIdeal.Read
import proofs.«169637_j33861522161768_2_alg».proof.Proof.RefChamfer
import proofs.«169637_j33861522161768_2_alg».proof.Proof.KernelValue
import Idealize.ShloMosaic.Adequacy
import Idealize.ShloMosaic.Init

noncomputable section

namespace Cert.Proof

open Idealize.ShloMosaic Idealize.ShloMosaic.TcCoe Idealize.SL.Sem Idealize.ShloMosaic.ValueIdx

/-- The reference's jet term is the kernel's: the same host operations of the two arguments. -/
theorem jet_eq (p q : Chamfer.Cloud) :
    Cert.ReferenceIdeal.Read.val_main_v22 (F := Ideal) p q = Cert.KernelIdeal.KernelValue.jet p q := rfl

/-- The reference's result, as a function of its arguments, is the Chamfer loss plus the jet term. -/
theorem ref_result (p q : Chamfer.Cloud) (i : Cert.ReferenceIdeal.S_.Idx) :
    Cert.ReferenceIdeal.Read.val_main_v23 (F := Ideal) p q i = Chamfer.chamfer p q + Cert.KernelIdeal.KernelValue.jet p q i := by
  obtain rfl : i = ix0 := eq_ix0 i
  rw [Cert.ReferenceIdeal.Read.val_main_v23_apply, Cert.ReferenceIdeal.RefValue.ref_chamfer, jet_eq]
  rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The rewriting pass changed no operation. -/
theorem preserves : Cert.preserves_Kernel_KernelIdeal := trivial

/-- From memories that agree on the two clouds both programs end with the Chamfer loss plus the jet term. -/
theorem algebraic : Cert.algebraic_KernelIdeal_ReferenceIdeal := by
  intro m ρ m' ρ' _ hagree
  refine ⟨fun c => Cert.KernelIdeal.KernelValue.result m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, (hagree c).1, (hagree c).2]
  exact funext fun i => ref_result _ _ i

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
